-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x4096x64 : Shape := ⟨4, ![2, 8, 4096, 64]⟩
abbrev S1x1x4096x4096 : Shape := ⟨4, ![1, 1, 4096, 4096]⟩
abbrev S_ : Shape := ⟨0, ![]⟩

class Facts : Prop where
  bcast_S_S2x8x4096x64 : S_.BroadcastsInDim S2x8x4096x64 (![] : Fin 0 → Fin S2x8x4096x64.rank)
  reducesTo_S2x8x4096x64_S_d0_1_2_3 : S2x8x4096x64.ReducesTo [0, 1, 2, 3] S_
  h_S_ : 0 < S_.numel

variable [Facts]

def fn {F : FTy → Type} [FloatOps F] (main_arg0 : FVec F S2x8x4096x64 .f32) (main_arg1 : FVec F S2x8x4096x64 .f32) (main_arg2 : FVec F S2x8x4096x64 .f32) (main_arg3 : IVec S1x1x4096x4096 1) : IVec S_ 1 :=
  let main_v0 : FVec F S2x8x4096x64 .f32 := Host.absf main_arg0
  let main_cst : FVec F S_ .f32 := constant S_ .f32 0x7F800000#32
  let main_v1 : FVec F S2x8x4096x64 .f32 := broadcastInDim S2x8x4096x64 ![] bcast_S_S2x8x4096x64 main_cst
  let main_v2 : IVec S2x8x4096x64 1 := cmpf .olt main_v0 main_v1
  let main_c : IVec S_ 1 := constantI S_ 1 1#1
  let main_v3 : IVec S_ 1 := (fun x v => Host.reduce IntOp.andi x v reducesTo_S2x8x4096x64_S_d0_1_2_3 h_S_) main_v2 main_c
  let main_v4 : FVec F S2x8x4096x64 .f32 := Host.absf main_arg1
  let main_cst_0 : FVec F S_ .f32 := constant S_ .f32 0x7F800000#32
  let main_v5 : FVec F S2x8x4096x64 .f32 := broadcastInDim S2x8x4096x64 ![] bcast_S_S2x8x4096x64 main_cst_0
  let main_v6 : IVec S2x8x4096x64 1 := cmpf .olt main_v4 main_v5
  let main_c_1 : IVec S_ 1 := constantI S_ 1 1#1
  let main_v7 : IVec S_ 1 := (fun x v => Host.reduce IntOp.andi x v reducesTo_S2x8x4096x64_S_d0_1_2_3 h_S_) main_v6 main_c_1
  let main_v8 : IVec S_ 1 := andi main_v3 main_v7
  let main_v9 : FVec F S2x8x4096x64 .f32 := Host.absf main_arg2
  let main_cst_2 : FVec F S_ .f32 := constant S_ .f32 0x7F800000#32
  let main_v10 : FVec F S2x8x4096x64 .f32 := broadcastInDim S2x8x4096x64 ![] bcast_S_S2x8x4096x64 main_cst_2
  let main_v11 : IVec S2x8x4096x64 1 := cmpf .olt main_v9 main_v10
  let main_c_3 : IVec S_ 1 := constantI S_ 1 1#1
  let main_v12 : IVec S_ 1 := (fun x v => Host.reduce IntOp.andi x v reducesTo_S2x8x4096x64_S_d0_1_2_3 h_S_) main_v11 main_c_3
  let main_v13 : IVec S_ 1 := andi main_v8 main_v12
  main_v13
-- ==== Kernel.lean ====
abbrev S2x8x4096x64 : Shape := ⟨4, ![2, 8, 4096, 64]⟩
abbrev S1x1x4096x4096 : Shape := ⟨4, ![1, 1, 4096, 4096]⟩
abbrev S16x4096x64 : Shape := ⟨3, ![16, 4096, 64]⟩
abbrev S4096x4096 : Shape := ⟨2, ![4096, 4096]⟩
abbrev S4096x128x32 : Shape := ⟨3, ![4096, 128, 32]⟩
abbrev S32 : Shape := ⟨1, ![32]⟩
abbrev S_ : Shape := ⟨0, ![]⟩
abbrev S1x1x32 : Shape := ⟨3, ![1, 1, 32]⟩
abbrev S4096x128 : Shape := ⟨2, ![4096, 128]⟩
abbrev S1x256x64 : Shape := ⟨3, ![1, 256, 64]⟩
abbrev S1x4096x64 : Shape := ⟨3, ![1, 4096, 64]⟩
abbrev S256x128 : Shape := ⟨2, ![256, 128]⟩
abbrev S256x64 : Shape := ⟨2, ![256, 64]⟩
abbrev S4096x64 : Shape := ⟨2, ![4096, 64]⟩
abbrev S64x4096 : Shape := ⟨2, ![64, 4096]⟩
abbrev S256x4096 : Shape := ⟨2, ![256, 4096]⟩
abbrev S256x128x1 : Shape := ⟨3, ![256, 128, 1]⟩
abbrev S256x128x32 : Shape := ⟨3, ![256, 128, 32]⟩
abbrev S256 : Shape := ⟨1, ![256]⟩
abbrev S256x1 : Shape := ⟨2, ![256, 1]⟩

abbrev nBuf : Space → Nat
  | .hbm => 21
  | .vmem => 10
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S1x1x4096x4096, .i1⟩
  | .hbm, ⟨4, _⟩ => ⟨S16x4096x64, .f32⟩
  | .hbm, ⟨5, _⟩ => ⟨S16x4096x64, .f32⟩
  | .hbm, ⟨6, _⟩ => ⟨S16x4096x64, .f32⟩
  | .hbm, ⟨7, _⟩ => ⟨S4096x4096, .i1⟩
  | .hbm, ⟨8, _⟩ => ⟨S4096x4096, .i32⟩
  | .hbm, ⟨9, _⟩ => ⟨S4096x128x32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S1x1x32, .i32⟩
  | .hbm, ⟨15, _⟩ => ⟨S4096x128x32, .i32⟩
  | .hbm, ⟨16, _⟩ => ⟨S4096x128x32, .i32⟩
  | .hbm, ⟨17, _⟩ => ⟨S_, .i32⟩
  | .hbm, ⟨18, _⟩ => ⟨S4096x128, .i32⟩
  | .hbm, ⟨19, _⟩ => ⟨S16x4096x64, .f32⟩
  | .hbm, ⟨20, _⟩ => ⟨S2x8x4096x64, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S256x128, .i32⟩
  | .local _ .vmem, ⟨7, _⟩ => ⟨S256x128, .i32⟩
  | .local _ .vmem, ⟨8, _⟩ => ⟨S1x256x64, .f32⟩
  | .local _ .vmem, ⟨9, _⟩ => ⟨S1x256x64, .f32⟩
  | _, _ => ⟨S2x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x8x4096x64_S16x4096x64 : S2x8x4096x64.ShapeCasts S16x4096x64
  shapeCasts_S1x1x4096x4096_S4096x4096 : S1x1x4096x4096.ShapeCasts S4096x4096
  natLt_1_32 : 1 < 32
  shapeCasts_S4096x4096_S4096x128x32 : S4096x4096.ShapeCasts S4096x128x32
  bcast_S_S32 : S_.BroadcastsInDim S32 (![] : Fin 0 → Fin S32.rank)
  bcast_S32_S1x1x32_2 : S32.BroadcastsInDim S1x1x32 (![2] : Fin 1 → Fin S1x1x32.rank)
  bcast_S1x1x32_S4096x128x32_0_1_2 : S1x1x32.BroadcastsInDim S4096x128x32 (![0, 1, 2] : Fin 3 → Fin S4096x128x32.rank)
  reducesTo_S4096x128x32_S4096x128_d2 : S4096x128x32.ReducesTo [2] S4096x128
  h_S_ : 0 < S_.numel
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  transposes_S4096x64_p1_0_S64x4096 : S4096x64.Transposes [1, 0] S64x4096
  inb_S256x128_S256x128_0_0 : ∀ a, (![0, 0] : Fin 2 → Nat) a + S256x128.size a ≤ S256x128.size a
  h_S256x128 : 0 < S256x128.numel
  shapeCasts_S256x128_S256x128 : S256x128.ShapeCasts S256x128
  iota_S1x1x32_d2_w32 : S1x1x32.Iotas .tc 32 [2]
  shapeCasts_S256x128_S256x128x1 : S256x128.ShapeCasts S256x128x1
  broadcasts_S256x128x1_S256x128x32 : S256x128x1.Broadcasts S256x128x32
  broadcasts_S1x1x32_S256x128x32 : S1x1x32.Broadcasts S256x128x32
  shapeCasts_S256x128x32_S256x4096 : S256x128x32.ShapeCasts S256x4096
  reduces_S256x4096_S256 : S256x4096.Reduces [1] S256
  shapeCasts_S256_S256x1 : S256.ShapeCasts S256x1
  broadcasts_S256x1_S256x4096 : S256x1.Broadcasts S256x4096
  broadcasts_S256x1_S256x64 : S256x1.Broadcasts S256x64
  shapeCasts_S256x64_S1x256x64 : S256x64.ShapeCasts S1x256x64
  shapeCasts_S16x4096x64_S2x8x4096x64 : S16x4096x64.ShapeCasts S2x8x4096x64
  dot_S256x64_S64x4096_S256x4096_1_0_0_1_n_n_wf : DotDims.WF S256x64 S64x4096 S256x4096 [1] [0] [0] [1] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x4096x64.size a
  hwx0_0 : ∀ i : grid0.Coords, EltTy.bits .f32 = 32 ∨ (Rect.block (s := S16x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .f32 = 32 ∨ (Rect.block (s := S16x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .f32 = 32 ∨ (Rect.block (s := S16x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S4096x128.size a
  hwx0_3 : ∀ i : grid0.Coords, EltTy.bits .i32 = 32 ∨ (Rect.block (s := S4096x128) S256x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S16x4096x64.size a
  hwx0_4 : ∀ i : grid0.Coords, EltTy.bits .f32 = 32 ∨ (Rect.block (s := S16x4096x64) S1x256x64.size (cc0_transform_4 i) (hinb0_4 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x8x4096x64 : Shape := ⟨4, ![2, 8, 4096, 64]⟩
abbrev S1x1x4096x4096 : Shape := ⟨4, ![1, 1, 4096, 4096]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S1x1x4096x4096, .i1⟩
  | .hbm, ⟨4, _⟩ => ⟨S2x8x4096x4096, .f32⟩
  | .hbm, ⟨5, _⟩ => ⟨S_, .f32⟩
  | .hbm, ⟨6, _⟩ => ⟨S2x8x4096x4096, .i1⟩
  | .hbm, ⟨7, _⟩ => ⟨S2x8x4096x4096, .f32⟩
  | .hbm, ⟨8, _⟩ => ⟨S2x8x4096x4096, .f32⟩
  | .hbm, ⟨9, _⟩ => ⟨S_, .f32⟩
  | .hbm, ⟨10, _⟩ => ⟨S2x8x4096x4096, .f32⟩
  | .hbm, ⟨11, _⟩ => ⟨S2x8x4096x4096, .f32⟩
  | .hbm, ⟨12, _⟩ => ⟨S_, .f32⟩
  | .hbm, ⟨13, _⟩ => ⟨S2x8x4096, .f32⟩
  | .hbm, ⟨14, _⟩ => ⟨S_, .f32⟩
  | .hbm, ⟨15, _⟩ => ⟨S2x8x4096, .f32⟩
  | .hbm, ⟨16, _⟩ => ⟨S2x8x4096, .f32⟩
  | .hbm, ⟨17, _⟩ => ⟨S2x8x4096x1, .f32⟩
  | .hbm, ⟨18, _⟩ => ⟨S2x8x4096x4096, .f32⟩
  | .hbm, ⟨19, _⟩ => ⟨S2x8x4096x4096, .f32⟩
  | .hbm, ⟨20, _⟩ => ⟨S2x8x4096x4096, .f32⟩
  | .hbm, ⟨21, _⟩ => ⟨S_, .f32⟩
  | .hbm, ⟨22, _⟩ => ⟨S2x8x4096, .f32⟩
  | .hbm, ⟨23, _⟩ => ⟨S2x8x4096x1, .f32⟩
  | .hbm, ⟨24, _⟩ => ⟨S2x8x4096x4096, .f32⟩
  | .hbm, ⟨25, _⟩ => ⟨S2x8x4096x4096, .f32⟩
  | .hbm, ⟨26, _⟩ => ⟨S2x8x4096x64, .f32⟩
  | _, _ => ⟨S2x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S1x1x4096x4096_S2x8x4096x4096_0_1_2_3 : S1x1x4096x4096.BroadcastsInDim S2x8x4096x4096 (![0, 1, 2, 3] : Fin 4 → Fin S2x8x4096x4096.rank)
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.AttnSpec.lean ====
/-
  The mathematics both programs compute, stated once over the extended reals with no program in sight.

  One attention row.  For a query row `q`, the key rows `k j`, the value column `v j` (j < 4096) and the
  mask bits `b j`:  the SCORE of key `j` is the dot product of `q` with `k j`, replaced by a large negative
  fill where the mask bit is set, scaled by 1/8 = 1/sqrt 64;  the row's result is the softmax of the scores
  (shifted by their maximum) weighted into `v`.
  The reference fills with -10^9 and THEN divides by 8, normalises each weight and then sums
  (`scoreRef`, `rowRef`);  the kernel multiplies the query by 1/8 first, fills with -1.25 * 10^8, sums the
  unnormalised weights into `v` and divides ONCE by the weights' sum (`scoreKer`, `rowKer`).
  The kernel also reads its mask from 32-bit words, 32 mask bits to a word (`packWord`, `bitOf`).
-/
import Idealize.ShloMosaic.PureOps.Ideal
import Idealize.ShloMosaic.PureOps.Reduce
import Idealize.ShloMosaic.Lib.ValueIdx

noncomputable section

namespace Cert.Attn

open Idealize.ShloMosaic Idealize.ShloMosaic.ValueIdx

/-! ## The float words of the two programs, as extended reals -/

/-- The word of -infinity: where both row maxima start. -/
def negInf : EReal := Ideal.ofBits .f32 0xFF800000#32
/-- The reference's fill, -10^9. -/
def fillRef : EReal := Ideal.ofBits .f32 0xCE6E6B28#32
/-- The kernel's fill, -1.25 * 10^8. -/
def fillKer : EReal := Ideal.ofBits .f32 0xCCEE6B28#32
/-- The reference's divisor, 8. -/
def eight : EReal := Ideal.ofBits .f32 0x41000000#32
/-- The kernel's factor, 1/8. -/
def eighth : EReal := Ideal.ofBits .f32 0x3E000000#32
/-- The word of zero: where the reference's sum of weights starts. -/
def zeroW : EReal := Ideal.ofBits .f32 0x00000000#32

/-! ## One score -/

/-- The reference's score: fill where the bit is set, else the dot product; then divided by 8. -/
def scoreRef (q k : Fin 64 → EReal) (b : BitVec 1) : EReal :=
  Ideal.div (Scalar.select b fillRef (∑ d : Fin 64, q d * k d)) eight

/-- The kernel's score: the query scaled by 1/8 first; the fill is already scaled. -/
def scoreKer (q k : Fin 64 → EReal) (b : BitVec 1) : EReal :=
  Scalar.select b fillKer (∑ d : Fin 64, (q d * eighth) * k d)

/-! ## One row -/

/-- The maximum of a row of scores, folded from -infinity. -/
def rowMax (s : Fin 4096 → EReal) : EReal := (Finset.univ : Finset (Fin 4096)).fold max negInf s

/-- The reference's row: each weight exp (s j - max) divided by the sum of all weights, then summed into `v`.
    (jax takes the maximum once more against -infinity, and starts its sum of weights from the zero word.) -/
def rowRef (s v : Fin 4096 → EReal) : EReal :=
  ∑ j : Fin 4096, Ideal.div (Ideal.exp (s j - max negInf (rowMax s)))
      (zeroW + ∑ j' : Fin 4096, Ideal.exp (s j' - max negInf (rowMax s))) * v j

/-- The kernel's row: the unnormalised weights summed into `v`, divided once by the sum of the weights. -/
def rowKer (s v : Fin 4096 → EReal) : EReal :=
  Ideal.div (∑ j : Fin 4096, Ideal.exp (s j - rowMax s) * v j) (∑ j : Fin 4096, Ideal.exp (s j - rowMax s))

/-! ## The mask, packed 32 bits to a word -/

/-- The word holding 32 mask bits: the sum over `b` of the bit, widened to a word, times `1 <<< b`. -/
def packWord (f : Fin 32 → BitVec 1) : BitVec 32 :=
  (Finset.univ : Finset (Fin 32)).fold IntOp.addi 0#32
    (fun b => IntOp.muli ((f b).setWidth 32) (IntOp.shli .host 1#32 (BitVec.ofNat 32 b.val)))

/-- Bit `b` of a word as the kernel reads it: shifted down (arithmetically), masked with 1, compared with 0. -/
def bitOf (w : BitVec 32) (b : Fin 32) : BitVec 1 :=
  IntOp.cmpi .ne (IntOp.andi (IntOp.shrsi .vector w (BitVec.ofNat 32 b.val)) 1#32) 0#32

/-- Key position `j` sits in word `j / 32` of its mask row, -/
def wordOf (j : Fin 4096) : Fin 128 := ⟨j.val / 32, by have := j.isLt; omega⟩
/-- at bit `j % 32`. -/
def bitPos (j : Fin 4096) : Fin 32 := ⟨j.val % 32, Nat.mod_lt _ (by decide)⟩
/-- Bit `b` of word `i` is key position `32 i + b`. -/
def keyOf (i : Fin 128) (b : Fin 32) : Fin 4096 := ⟨32 * i.val + b.val, by have := i.isLt; have := b.isLt; omega⟩

/-! ## The whole result, index by index -/

abbrev SQ : Shape := ⟨4, ![2, 8, 4096, 64]⟩
abbrev SM : Shape := ⟨4, ![1, 1, 4096, 4096]⟩

/-- The reference's result at batch `b`, head `h`, query `q`, feature `d`, from the four argument arrays. -/
def refAt (Q K V : SQ.Idx → EReal) (M : SM.Idx → BitVec 1) (b : Fin 2) (h : Fin 8) (q : Fin 4096) (d : Fin 64) : EReal :=
  rowRef (fun j => scoreRef (fun e => Q (ix4 b h q e)) (fun e => K (ix4 b h j e)) (M (ix4 0 0 q j)))
    (fun j => V (ix4 b h j d))

/-- The kernel's result at the same place, with the kernel's order of operations and the mask bit read as is. -/
def kerAt (Q K V : SQ.Idx → EReal) (M : SM.Idx → BitVec 1) (b : Fin 2) (h : Fin 8) (q : Fin 4096) (d : Fin 64) : EReal :=
  rowKer (fun j => scoreKer (fun e => Q (ix4 b h q e)) (fun e => K (ix4 b h j e)) (M (ix4 0 0 q j)))
    (fun j => V (ix4 b h j d))

/-- The reference's result array. -/
def G (Q K V : SQ.Idx → EReal) (M : SM.Idx → BitVec 1) : SQ.Idx → EReal :=
  fun i => refAt Q K V M (i 0) (i 1) (i 2) (i 3)

theorem G_ix4 (Q K V : SQ.Idx → EReal) (M : SM.Idx → BitVec 1) (b : Fin 2) (h : Fin 8) (q : Fin 4096) (d : Fin 64) :
    G Q K V M (ix4 b h q d) = refAt Q K V M b h q d := rfl

end Cert.Attn

end
-- ==== Proof.HostSide.lean ====
/-
  The host operations around the kernel's launch, read at an index.

  Before the launch: Q, K and V of shape [2, 8, 4096, 64] are viewed as [16, 4096, 64], batch b and head h becoming
  the one leading coordinate 8 b + h; and the mask row of 4096 bits at each query position is packed, 32 bits to a
  word, into 128 words: word i of query q is the sum over b < 32 of the bit at key 32 i + b, widened to a word, times
  1 shifted left by b.  After the launch the [16, 4096, 64] result is viewed as [2, 8, 4096, 64] again.
-/
import proofs.«113299_j9955734192580_2_alg».proof.Proof.Gen.KernelIdeal.Frame
import proofs.«113299_j9955734192580_2_alg».proof.Proof.AttnSpec
import Idealize.ShloMosaic.Lib.Pipeline.Value
import Idealize.ShloMosaic.Lib.StableHlo.Run
import Idealize.ShloMosaic.Lib.Tactic

set_option pp.maxSteps 8000
set_option pp.deepTerms false

noncomputable section

namespace Cert.KernelIdeal.Hand

open Cert.KernelIdeal Cert.KernelIdeal.Gen Idealize.ShloMosaic Idealize.ShloMosaic.TcCoe Idealize.SL.Sem
open Idealize.ShloMosaic.ValueIdx Cert.Attn

/-- Batch b and head h as the one leading coordinate of the [16, 4096, 64] view. -/
def hd (b : Fin 2) (h : Fin 8) : Fin 16 := ⟨8 * b.val + h.val, by have := b.isLt; have := h.isLt; omega⟩

/-- The [2, 8, 4096, 64] array viewed as [16, 4096, 64], at (8 b + h, q, e), is the array at (b, h, q, e). -/
theorem merge_heads_apply {α : Type} (x : S2x8x4096x64.Idx → α) (b : Fin 2) (h : Fin 8) (q : Fin 4096) (e : Fin 64) :
    shapeCast S16x4096x64 x shapeCasts_S2x8x4096x64_S16x4096x64 (ix3 (hd b h) q e) = x (ix4 b h q e) :=
  shapeCast_apply x _ _ _ (by
    rw [Shape.rowMajor_val_four, Shape.rowMajor_val_three]
    show ((b.val * 8 + h.val) * 4096 + q.val) * 64 + e.val = ((8 * b.val + h.val) * 4096 + q.val) * 64 + e.val
    omega)

/-- The [16, 4096, 64] array viewed as [2, 8, 4096, 64], at (b, h, q, e), is the array at (8 b + h, q, e). -/
theorem split_heads_apply {α : Type} (y : S16x4096x64.Idx → α) (b : Fin 2) (h : Fin 8) (q : Fin 4096) (e : Fin 64) :
    shapeCast S2x8x4096x64 y shapeCasts_S16x4096x64_S2x8x4096x64 (ix4 b h q e) = y (ix3 (hd b h) q e) :=
  shapeCast_apply y _ _ _ (by
    rw [Shape.rowMajor_val_four, Shape.rowMajor_val_three]
    show ((8 * b.val + h.val) * 4096 + q.val) * 64 + e.val = ((b.val * 8 + h.val) * 4096 + q.val) * 64 + e.val
    omega)

/-- The packed mask as the host computes it from the mask array. -/
def packedOf (M : S1x1x4096x4096.Idx → BitVec 1) : S4096x128.Idx → BitVec 32 :=
  Host.reduce IntOp.addi
    (muli
      (shapeCast S4096x128x32 (extui 32 (shapeCast S4096x4096 M shapeCasts_S1x1x4096x4096_S4096x4096) natLt_1_32)
        shapeCasts_S4096x4096_S4096x128x32)
      (broadcastInDim S4096x128x32 ![0, 1, 2] bcast_S1x1x32_S4096x128x32_0_1_2
        (broadcastInDim S1x1x32 ![2] bcast_S32_S1x1x32_2
          (Host.shli (broadcastInDim S32 ![] bcast_S_S32 (constantI S_ 32 1#32)) (iotaInDim S32 32 0)))))
    (constantI S_ 32 0#32) reducesTo_S4096x128x32_S4096x128_d2 h_S_

/-- The widened mask bit the sum runs over, at (q, i, b): the mask at query q, key 32 i + b. -/
theorem bits_apply (M : S1x1x4096x4096.Idx → BitVec 1) (q : Fin 4096) (i : Fin 128) (b : Fin 32) :
    shapeCast S4096x128x32 (extui 32 (shapeCast S4096x4096 M shapeCasts_S1x1x4096x4096_S4096x4096) natLt_1_32)
        shapeCasts_S4096x4096_S4096x128x32 (ix3 q i b)
      = (M (ix4 0 0 q (keyOf i b))).setWidth 32 := by
  rw [shapeCast_apply _ shapeCasts_S4096x4096_S4096x128x32 (ix3 q i b) (ix2 q (keyOf i b)) (by
    rw [Shape.rowMajor_val_two, Shape.rowMajor_val_three]
    show q.val * 4096 + (32 * i.val + b.val) = (q.val * 128 + i.val) * 32 + b.val
    omega)]
  rw [extui_apply]
  rw [shapeCast_apply M shapeCasts_S1x1x4096x4096_S4096x4096 (ix2 q (keyOf i b)) (ix4 0 0 q (keyOf i b)) (by
    rw [Shape.rowMajor_val_two, Shape.rowMajor_val_four]
    show ((0 * 1 + 0) * 4096 + q.val) * 4096 + (keyOf i b).val = q.val * 4096 + (keyOf i b).val
    omega)]

/-- The weight the bit is multiplied by, at (q, i, b): 1 shifted left by b. -/
theorem weights_apply (q : Fin 4096) (i : Fin 128) (b : Fin 32) :
    broadcastInDim S4096x128x32 ![0, 1, 2] bcast_S1x1x32_S4096x128x32_0_1_2
        (broadcastInDim S1x1x32 ![2] bcast_S32_S1x1x32_2
          (Host.shli (broadcastInDim S32 ![] bcast_S_S32 (constantI S_ 32 1#32)) (iotaInDim S32 32 0))) (ix3 q i b)
      = IntOp.shli .host 1#32 (BitVec.ofNat 32 b.val) := by
  rw [broadcastInDim_apply _ bcast_S1x1x32_S4096x128x32_0_1_2 _ (ix3 q i b) (ix3 (0 : Fin 1) (0 : Fin 1) b) (fun a => match a with
    | ⟨0, _⟩ => by show 0 = if (1 : Nat) = 1 then 0 else q.val; rw [if_pos rfl]
    | ⟨1, _⟩ => by show 0 = if (1 : Nat) = 1 then 0 else i.val; rw [if_pos rfl]
    | ⟨2, _⟩ => by show b.val = if (32 : Nat) = 1 then 0 else b.val; rw [if_neg (by decide)])]
  rw [broadcastInDim_apply _ bcast_S32_S1x1x32_2 _ (ix3 (0 : Fin 1) (0 : Fin 1) b) (ix1 b) (fun a => match a with
    | ⟨0, _⟩ => by show b.val = if (32 : Nat) = 1 then 0 else b.val; rw [if_neg (by decide)])]
  show IntOp.shli .host (broadcastInDim S32 ![] bcast_S_S32 (constantI S_ 32 1#32) (ix1 b)) (iotaInDim S32 32 0 (ix1 b)) = _
  rw [broadcastInDim_apply _ bcast_S_S32 _ (ix1 b) ix0 (fun a => a.elim0)]
  rfl

/-- Word i of query q of the packed mask is the 32 mask bits at keys 32 i … 32 i + 31, packed. -/
theorem packedOf_apply (M : S1x1x4096x4096.Idx → BitVec 1) (q : Fin 4096) (i : Fin 128) :
    packedOf M (ix2 q i) = packWord (fun b => M (ix4 0 0 q (keyOf i b))) := by
  have hred : S4096x128x32.Reduces [2] S4096x128 := by decide
  unfold packedOf packWord
  rw [Host.reduce_eq_fold_single IntOp.addi _ _ reducesTo_S4096x128x32_S4096x128_d2 hred h_S_ (ix2 q i)]
  refine congrArg (fun f => Finset.fold IntOp.addi (0#32) f (Finset.univ : Finset (Fin 32))) (funext fun (b : Fin 32) => ?_)
  have hl : hred.lift (ix2 q i) b = ix3 q i b :=
    funext fun a => Fin.ext (by match a with | ⟨0, _⟩ => rfl | ⟨1, _⟩ => rfl | ⟨2, _⟩ => rfl)
  exact (congrArg (muli _ _) hl).trans (congrArg₂ IntOp.muli (bits_apply M q i b) (weights_apply q i b))

/-! ## A grid point's slab and tile

The launch's 256 grid points are the pairs (g, qi), g the [16, 4096, 64] view's leading coordinate and qi the tile of
256 query rows, in row-major order: point t is g = t / 16, qi = t % 16. -/

/-- The slab (batch and head) of grid point t. -/
def slabOf (t : Fin cfg0.N) : Fin 16 := ⟨t.val / 16, by have := t.isLt; have hN : cfg0.N = 256 := N_0; omega⟩
/-- The tile of 256 query rows of grid point t. -/
def tileOf (t : Fin cfg0.N) : Fin 16 := ⟨t.val % 16, Nat.mod_lt _ (by decide)⟩
/-- Row r of tile qi is query row 256 qi + r. -/
def rowOf (qi : Fin 16) (r : Fin 256) : Fin 4096 := ⟨256 * qi.val + r.val, by have := qi.isLt; have := r.isLt; omega⟩

/-! ## The kernel's result as one function of the arrays the launch finds -/

/-- The kernel's result at slab g, query row q, feature d, from the [16, 4096, 64] views of Q, K, V and the packed
    mask: the kernel's row functional of the kernel's scores, the mask bit of key j read from word j / 32 of row q. -/
def ker3At (Q3 K3 V3 : S16x4096x64.Idx → EReal) (P : S4096x128.Idx → BitVec 32) (g : Fin 16) (q : Fin 4096) (d : Fin 64) : EReal :=
  rowKer (fun j => scoreKer (fun e => Q3 (ix3 g q e)) (fun e => K3 (ix3 g j e)) (bitOf (P (ix2 q (wordOf j))) (bitPos j)))
    (fun j => V3 (ix3 g j d))

/-- The same as an array. -/
def ker3 (Q3 K3 V3 : S16x4096x64.Idx → EReal) (P : S4096x128.Idx → BitVec 32) : S16x4096x64.Idx → EReal :=
  fun i => ker3At Q3 K3 V3 P (i 0) (i 1) (i 2)

theorem ker3_ix3 (Q3 K3 V3 : S16x4096x64.Idx → EReal) (P : S4096x128.Idx → BitVec 32) (g : Fin 16) (q : Fin 4096) (d : Fin 64) :
    ker3 Q3 K3 V3 P (ix3 g q d) = ker3At Q3 K3 V3 P g q d := rfl

/-- The kernel's result array from the four argument arrays: the views, the packed mask, the launch, the view back. -/
def kerOut (Q K V : S2x8x4096x64.Idx → EReal) (M : S1x1x4096x4096.Idx → BitVec 1) : S2x8x4096x64.Idx → EReal :=
  shapeCast S2x8x4096x64
    (ker3 (shapeCast S16x4096x64 Q shapeCasts_S2x8x4096x64_S16x4096x64) (shapeCast S16x4096x64 K shapeCasts_S2x8x4096x64_S16x4096x64)
      (shapeCast S16x4096x64 V shapeCasts_S2x8x4096x64_S16x4096x64) (packedOf M))
    shapeCasts_S16x4096x64_S2x8x4096x64

end Cert.KernelIdeal.Hand

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.Payload.lean ====
import proofs.«113299_j9955734192580_2_alg».proof.Proof.Gen.KernelIdeal.Skeleton
import proofs.«113299_j9955734192580_2_alg».proof.Proof.AttnSpec
import proofs.«113299_j9955734192580_2_alg».proof.Proof.LibMatmul
import proofs.«113299_j9955734192580_2_alg».proof.Proof.LibUnitAxis
import Idealize.ShloMosaic.Lib.Pipeline.Value
import Idealize.ShloMosaic.Lib.ValueLayout
import Idealize.ShloMosaic.PureOps.Ideal.Laws
/-!
  The kernel body's arithmetic, read at one index.

  The body is one pure term of the four loaded blocks. Its layout operations (casts across unit axes, the unpacking of
  the mask words into lanes, broadcasts, a transpose) each read their operand at one index; its two matrix products are
  finite sums over the contracted coordinate; its two row reductions are a fold of `max` and a sum along the row; the
  rest is pointwise. Read at row `r` and feature `d`, the whole term is the kernel's row functional applied to the
  kernel's scores of that row.
-/
noncomputable section
namespace Cert.Attn
open Idealize.ShloMosaic Idealize.ShloMosaic.ValueIdx Cert.KernelIdeal

/-! ## Layout operations of the body, read at an index given by coordinates -/

section Layout
variable {α : Type}

/-- The mask words unpacked: a `[256, 128, 32]` array flattened to `[256, 4096]` reads, at `(i, j)`, the operand at
    `(i, j / 32, j % 32)`: both sit at row-major position `4096 i + j`. -/
theorem cast_unpack_apply (x : (⟨3, ![256, 128, 32]⟩ : Shape).Idx → α)
    (h : (⟨3, ![256, 128, 32]⟩ : Shape).ShapeCasts ⟨2, ![256, 4096]⟩) (i : Fin 256) (j : Fin 4096) :
    shapeCast ⟨2, ![256, 4096]⟩ x h (ix2 i j) = x (ix3 i (wordOf j) (bitPos j)) :=
  shapeCast_apply x h _ _ (by
    rw [Shape.rowMajor_val_three, Shape.rowMajor_val_two]
    show (i.val * 128 + j.val / 32) * 32 + j.val % 32 = i.val * 4096 + j.val
    omega)

/-- A trailing unit axis added: an `[a, b]` array cast to `[a, b, 1]` reads, at `(i, j, u)`, the operand at `(i, j)`. -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A word spread along a new last axis: an `[a, b, 1]` array broadcast to `[a, b, c]` reads, at `(i, j, k)`, the
    operand at `(i, j, 0)`. -/
theorem bcast_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- One row of lanes spread over every word: a `[1, 1, c]` array broadcast to `[a, b, c]` reads, at `(i, j, k)`, the
    operand at `(0, 0, k)`. -/
theorem bcast_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The lane counter: the count along the last axis of `[1, 1, 32]` reads, at `(0, 0, k)`, the word of `k`. -/
theorem iota_lane_apply (h : (⟨3, ![1, 1, 32]⟩ : Shape).Iotas .tc 32 [2]) (u v : Fin 1) (k : Fin 32) :
    iota .tc ⟨3, ![1, 1, 32]⟩ 32 [2] h (ix3 u v k) = BitVec.ofNat 32 k.val := by
  show BitVec.ofNat 32 (0 * 32 + k.val) = BitVec.ofNat 32 k.val
  rw [Nat.zero_mul, Nat.zero_add]

/-- A per-row value kept as a column and spread back over its row: `[a]` viewed as `[a, 1]` and broadcast to
    `[a, b]` reads, at `(i, j)`, the vector at `i`. -/
theorem keepdims_apply {a b : ℕ} (m : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ m hc) hb (ix2 i j) = m (ix1 i) :=
  (Cert.Lib.UnitAxis.broadcastTo_a1_ab_apply _ hb i j).trans (Cert.Lib.UnitAxis.shapeCast_a_a1_apply m hc i 0)

end Layout

/-! ## The stages of the body that are not pointwise, each over arbitrary operands -/

/-- The scores before masking: the query block scaled by 1/8, times the transposed keys, into the zero accumulator.
    The format changes are the identity on extended reals; the casts drop the blocks' leading unit axis. -/
theorem qk_apply (x0 : Vec Ideal S1x256x64 .f32) (x1 : Vec Ideal S1x4096x64 .f32) (r : Fin 256) (j : Fin 4096) :
    matmul (F := Ideal) dot_S256x64_S64x4096_S256x4096_1_0_0_1_n_n none
        (truncf .bf16 (mulf (shapeCast S256x64 x0 Gen.shapeCasts_S1x256x64_S256x64)
          (broadcast S256x64 (Scalar.ofBits (F := Ideal) .f32 0x3E000000#32))) Gen.bitsLt_bf16_f32)
        (transpose S64x4096 [1, 0] (truncf .bf16 (shapeCast S4096x64 x1 Gen.shapeCasts_S1x4096x64_S4096x64)
          Gen.bitsLt_bf16_f32) Gen.transposes_S4096x64_p1_0_S64x4096)
        (constant (F := Ideal) S256x4096 .f32 0x00000000#32) (ix2 r j)
      = ∑ e : Fin 64, (x0 (ix3 0 r e) * eighth) * x1 (ix3 0 j e) := by
  refine (Cert.Bridge.LibMatmul.matmul_zero_apply (M := 256) (K := 64) (N := 4096) none _ _ r j).trans ?_
  refine Finset.sum_congr rfl fun e _ => ?_
  have el : shapeCast S256x64 x0 Gen.shapeCasts_S1x256x64_S256x64 (ix2 r e) = x0 (ix3 0 r e) :=
    shapeCast_1ab_ab_apply x0 _ r e
  have er : transpose S64x4096 [1, 0] (truncf (F := Ideal) .bf16 (shapeCast S4096x64 x1 Gen.shapeCasts_S1x4096x64_S4096x64)
      Gen.bitsLt_bf16_f32) Gen.transposes_S4096x64_p1_0_S64x4096 (ix2 e j) = x1 (ix3 0 j e) :=
    (transpose_ix2_apply _ _ e j).trans (shapeCast_1ab_ab_apply x1 _ j e)
  exact congrArg₂ (fun a b => (a * eighth) * b) el er

/-- The mask bit of row `r`, key `j`: the packed words, each spread over 32 lanes, shifted down by the lane's number,
    masked with 1 and compared with 0, then the lanes laid out along the row. Key `j` is lane `j % 32` of word `j / 32`. -/
theorem mask_apply (x3 : Vec Ideal S256x128 .i32) (r : Fin 256) (j : Fin 4096) :
    shapeCast S256x4096
        (cmpi .ne
          (andi
            (shrsi
              (broadcastTo S256x128x32
                (shapeCast S256x128x1 (shapeCast S256x128 x3 Gen.shapeCasts_S256x128_S256x128) Gen.shapeCasts_S256x128_S256x128x1)
                Gen.broadcasts_S256x128x1_S256x128x32)
              (broadcastTo S256x128x32 (iota .tc S1x1x32 32 [2] Gen.iota_S1x1x32_d2_w32) Gen.broadcasts_S1x1x32_S256x128x32))
            (broadcast S256x128x32 1#32))
          (broadcast S256x128x32 0#32))
        Gen.shapeCasts_S256x128x32_S256x4096 (ix2 r j)
      = bitOf (x3 (ix2 r (wordOf j))) (bitPos j) := by
  refine (cast_unpack_apply _ _ r j).trans ?_
  have ew : broadcastTo S256x128x32
      (shapeCast S256x128x1 (shapeCast S256x128 x3 Gen.shapeCasts_S256x128_S256x128) Gen.shapeCasts_S256x128_S256x128x1)
      Gen.broadcasts_S256x128x1_S256x128x32 (ix3 r (wordOf j) (bitPos j)) = x3 (ix2 r (wordOf j)) :=
    (bcast_ab1_abc_apply _ _ r (wordOf j) (bitPos j)).trans
      ((cast_ab_ab1_apply _ _ r (wordOf j) 0).trans
        (congrFun (shapeCast_self x3 Gen.shapeCasts_S256x128_S256x128) (ix2 r (wordOf j))))
  have eb : broadcastTo S256x128x32 (iota .tc S1x1x32 32 [2] Gen.iota_S1x1x32_d2_w32) Gen.broadcasts_S1x1x32_S256x128x32
      (ix3 r (wordOf j) (bitPos j)) = BitVec.ofNat 32 (bitPos j).val :=
    (bcast_11c_abc_apply _ _ r (wordOf j) (bitPos j)).trans (iota_lane_apply _ 0 0 (bitPos j))
  exact congrArg₂ (fun w b => IntOp.cmpi .ne (IntOp.andi (IntOp.shrsi .vector w b) 1#32) 0#32) ew eb

/-- The row maximum: the fold of `max` from minus infinity along the row. -/
theorem rowmax_apply (v : FVec Ideal S256x4096 .f32) (r : Fin 256) :
    multiReduction (F := Ideal) .maximumf [1] S256 v 0xFF800000#32 Gen.reduces_S256x4096_S256 (.inl rfl) rfl (ix1 r)
      = rowMax (fun j => v (ix2 r j)) := by
  refine (Ideal.multiReduction_maximumf_single v _ Gen.reduces_S256x4096_S256 (.inl rfl) rfl (ix1 r)).trans ?_
  have hl : (v ∘ Gen.reduces_S256x4096_S256.lift (ix1 r)) = fun j : Fin 4096 => v (ix2 r j) :=
    funext fun j => congrArg v (funext fun c => Fin.ext (by
      match c with
      | ⟨0, _⟩ => rfl
      | ⟨1, _⟩ => rfl))
  rw [hl]
  rfl

/-- The row sum: the sum along the row. -/
theorem rowsum_apply (v : FVec Ideal S256x4096 .f32) (r : Fin 256) :
    multiReduction (F := Ideal) .add [1] S256 v 0x00000000#32 Gen.reduces_S256x4096_S256 (.inl rfl) rfl (ix1 r)
      = ∑ j : Fin 4096, v (ix2 r j) := by
  refine (Ideal.multiReduction_add_single v _ Gen.reduces_S256x4096_S256 (.inl rfl) rfl (ix1 r)).trans ?_
  refine Finset.sum_congr rfl fun j _ => congrArg v (funext fun c => Fin.ext ?_)
  match c with
  | ⟨0, _⟩ => rfl
  | ⟨1, _⟩ => rfl

/-- The weights times the values: a `[256, 4096]` array times the value block, into the zero accumulator. -/
theorem pv_apply (w : FVec Ideal S256x4096 .f32) (x2 : Vec Ideal S1x4096x64 .f32) (r : Fin 256) (d : Fin 64) :
    matmul (F := Ideal) dot_S256x4096_S4096x64_S256x64_1_0_0_1_n_n none (truncf .bf16 w Gen.bitsLt_bf16_f32)
        (truncf .bf16 (shapeCast S4096x64 x2 Gen.shapeCasts_S1x4096x64_S4096x64) Gen.bitsLt_bf16_f32)
        (constant (F := Ideal) S256x64 .f32 0x00000000#32) (ix2 r d)
      = ∑ j : Fin 4096, w (ix2 r j) * x2 (ix3 0 j d) := by
  refine (Cert.Bridge.LibMatmul.matmul_zero_apply (M := 256) (K := 4096) (N := 64) none _ _ r d).trans ?_
  refine Finset.sum_congr rfl fun j _ => ?_
  have er : shapeCast S4096x64 x2 Gen.shapeCasts_S1x4096x64_S4096x64 (ix2 j d) = x2 (ix3 0 j d) :=
    shapeCast_1ab_ab_apply x2 _ j d
  exact congrArg (fun b => w (ix2 r j) * b) er

/-! ## The two halves of the body -/

/-- The masked scores at row `r`, key `j`: the kernel's score of key `j`. -/
theorem score_apply (m : IVec S256x4096 1) (s : FVec Ideal S256x4096 .f32) (r : Fin 256) (j : Fin 4096) :
    select m (broadcast S256x4096 (Scalar.ofBits (F := Ideal) .f32 0xCCEE6B28#32)) s (ix2 r j)
      = Scalar.select (m (ix2 r j)) fillKer (s (ix2 r j)) := rfl

/-- From the masked scores to the result: shift by the row maximum, exponentiate, sum the weights into the values and
    divide once by the weights' sum. -/
theorem softmax_apply (v : FVec Ideal S256x4096 .f32) (x2 : Vec Ideal S1x4096x64 .f32) (r : Fin 256) (d : Fin 64) :
    divf
        (matmul (F := Ideal) dot_S256x4096_S4096x64_S256x64_1_0_0_1_n_n none
          (truncf .bf16
            (exp (subf v (broadcastTo S256x4096
              (shapeCast S256x1
                (multiReduction (F := Ideal) .maximumf [1] S256 v 0xFF800000#32 Gen.reduces_S256x4096_S256 (.inl rfl) rfl)
                Gen.shapeCasts_S256_S256x1) Gen.broadcasts_S256x1_S256x4096)))
            Gen.bitsLt_bf16_f32)
          (truncf .bf16 (shapeCast S4096x64 x2 Gen.shapeCasts_S1x4096x64_S4096x64) Gen.bitsLt_bf16_f32)
          (constant (F := Ideal) S256x64 .f32 0x00000000#32))
        (broadcastTo S256x64
          (shapeCast S256x1
            (multiReduction (F := Ideal) .add [1] S256
              (exp (subf v (broadcastTo S256x4096
                (shapeCast S256x1
                  (multiReduction (F := Ideal) .maximumf [1] S256 v 0xFF800000#32 Gen.reduces_S256x4096_S256 (.inl rfl) rfl)
                  Gen.shapeCasts_S256_S256x1) Gen.broadcasts_S256x1_S256x4096)))
              0x00000000#32 Gen.reduces_S256x4096_S256 (.inl rfl) rfl)
            Gen.shapeCasts_S256_S256x1) Gen.broadcasts_S256x1_S256x64)
        (ix2 r d)
      = rowKer (fun j => v (ix2 r j)) (fun j => x2 (ix3 0 j d)) := by
  -- the weight of key `j` in row `r`
  have hw : ∀ j : Fin 4096,
      exp (subf v (broadcastTo S256x4096
        (shapeCast S256x1
          (multiReduction (F := Ideal) .maximumf [1] S256 v 0xFF800000#32 Gen.reduces_S256x4096_S256 (.inl rfl) rfl)
          Gen.shapeCasts_S256_S256x1) Gen.broadcasts_S256x1_S256x4096)) (ix2 r j)
        = Ideal.exp (v (ix2 r j) - rowMax (fun j => v (ix2 r j))) := fun j =>
    congrArg (fun m => Ideal.exp (v (ix2 r j) - m))
      ((keepdims_apply _ Gen.shapeCasts_S256_S256x1 Gen.broadcasts_S256x1_S256x4096 r j).trans (rowmax_apply v r))
  refine congrArg₂ Ideal.div ((pv_apply _ x2 r d).trans ?_)
    ((keepdims_apply _ Gen.shapeCasts_S256_S256x1 Gen.broadcasts_S256x1_S256x64 r d).trans ((rowsum_apply _ r).trans ?_))
  · exact Finset.sum_congr rfl fun j _ => congrArg (fun a => a * x2 (ix3 0 j d)) (hw j)
  · exact Finset.sum_congr rfl fun j _ => hw j

/-! ## The body's two payloads -/

/-- The body's result at row r, feature d: the kernel's row functional of the kernel's scores. -/
theorem pay2_apply (x0 : Vec Ideal S1x256x64 .f32) (x1 x2 : Vec Ideal S1x4096x64 .f32) (x3 : Vec Ideal S256x128 .i32)
    (r : Fin 256) (d : Fin 64) :
    Cert.KernelIdeal.Gen.k0_pay2 (F := Ideal) x0 x1 x2 x3 (ix2 r d)
      = rowKer (fun j => scoreKer (fun e => x0 (ix3 0 r e)) (fun e => x1 (ix3 0 j e)) (bitOf (x3 (ix2 r (wordOf j))) (bitPos j)))
          (fun j => x2 (ix3 0 j d)) := by
  unfold Gen.k0_pay2
  refine (softmax_apply _ x2 r d).trans ?_
  refine congrArg (fun s => rowKer s fun j => x2 (ix3 0 j d)) (funext fun j => ?_)
  refine (score_apply _ _ r j).trans ?_
  exact congrArg₂ (fun b s => Scalar.select b fillKer s) (mask_apply x3 r j) (qk_apply x0 x1 r j)

/-- The stored value is the body's result with a leading unit axis. -/
theorem pay1_apply (v : FVec Ideal S256x64 .f32) (r : Fin 256) (d : Fin 64) :
    Cert.KernelIdeal.Gen.k0_pay1 (F := Ideal) v (ix3 0 r d) = v (ix2 r d) := by
  unfold Gen.k0_pay1
  exact shapeCast_ab_1ab_apply v _ 0 r d

end Cert.Attn
-- ==== Proof.Cover.lean ====
/-
  The output blocks tile the result array.

  The launch runs over a 16 x 16 grid, 256 points in row-major order: point t has coordinates (t / 16, t % 16).
  Each point writes one block of 1 x 256 x 64 entries of the [16, 4096, 64] result, the block whose index on the
  three axes is (t / 16, t % 16, 0): rows 256 (t % 16) to 256 (t % 16) + 255 of slab t / 16.  An entry (g, r, e) of
  the result therefore lies in the block of the point 16 g + r / 256, and in no other: the blocks cover the array.
-/
import proofs.«113299_j9955734192580_2_alg».proof.Proof.Gen.KernelIdeal.Frame
import Idealize.ShloMosaic.Lib.Pipeline.Value
noncomputable section
namespace Cert.KernelIdeal.Hand
open Cert.KernelIdeal Cert.KernelIdeal.Gen Idealize.ShloMosaic Idealize.ShloMosaic.TcCoe Idealize.SL.Sem

/-- The printed index maps at grid point t, decided over the 256 points: windows 0 and 4 sit at block (t / 16, t % 16, 0), windows 1 and 2 at (t / 16, 0, 0), window 3 at (t % 16, 0). -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 2) = t.val % 16 ∧ win0_3.index t (1 : Fin 2) = 0
    ∧ win0_4.index t (0 : Fin 3) = t.val / 16 ∧ win0_4.index t (1 : Fin 3) = t.val % 16 ∧ win0_4.index t (2 : Fin 3) = 0 :=
  (by decide +kernel : ∀ t : Fin grid0.N, _)

/-- An index of the result array is in point t's block iff each coordinate is in the block's range on its axis. -/
theorem mem_blk4 (t : Fin cfg0.N) (i : S16x4096x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v13).slice (win0_4.rect t)).set ↔ _
  rw [View.set_slice_whole, Rect.mem_set_unit]
  exact Iff.rfl

/-- Every index of the result array is in the block of some point that writes back (all 256 do). -/
theorem cover4 (i : S16x4096x64.Idx) : ∃ t : Fin cfg0.N, (cfg0.win 4).flush t = true ∧ i ∈ ((cfg0.win 4).blk t).view.set := by
  have hN : cfg0.N = 256 := N_0
  have hi0 : (i 0).val < 16 := (i 0).isLt
  have hi1 : (i 1).val < 4096 := (i 1).isLt
  have hi2 : (i 2).val < 64 := (i 2).isLt
  -- the point whose block holds the entry: slab (i 0), row group (i 1) / 256
  obtain ⟨t, ht⟩ : ∃ t : Fin cfg0.N, t.val = 16 * (i 0).val + (i 1).val / 256 :=
    ⟨⟨16 * (i 0).val + (i 1).val / 256, by rw [hN]; omega⟩, rfl⟩
  obtain ⟨-, -, -, -, -, -, -, -, -, -, -, e0, e1, e2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

end Cert.KernelIdeal.Hand
end
-- ==== Proof.BlockReads.lean ====
/-
  The input windows' blocks, read at an index.

  At grid point t (slab t / 16, tile t % 16) the launch stages one block of each input array: the queries' block
  (t / 16, t % 16, 0) of 1 x 256 x 64 entries, the keys' and the values' block (t / 16, 0, 0) of 1 x 4096 x 64 entries (a
  whole slab), and the packed mask's block (t % 16, 0) of 256 x 128 words.  A block's entry at a coordinate inside the
  block is the array's entry at block index times block size plus that coordinate, axis by axis.
-/
import proofs.«113299_j9955734192580_2_alg».proof.Proof.Gen.KernelIdeal.Frame
import proofs.«113299_j9955734192580_2_alg».proof.Proof.HostSide
import proofs.«113299_j9955734192580_2_alg».proof.Proof.Cover
import Idealize.ShloMosaic.Lib.Pipeline.Value
noncomputable section
namespace Cert.KernelIdeal.Hand
open Cert.KernelIdeal Cert.KernelIdeal.Gen Idealize.ShloMosaic Idealize.ShloMosaic.TcCoe Idealize.SL.Sem Idealize.ShloMosaic.ValueIdx
variable (m : (ℓ : Loc nD τ sig) → Buf (Elt Ideal) ℓ)

/-- A block of the queries: point t's window is block (t / 16, t % 16, 0) of 1 x 256 x 64 entries, so entry (0, r, e) of
the block is entry (t / 16, 256 (t % 16) + r, e) of the array. -/
theorem iblk0_apply (c : Dev nD) (t : Fin cfg0.N) (r : Fin 256) (e : Fin 64) :
    (iblk m c 0 t : Vec Ideal S1x256x64 .f32) (ix3 0 r e) = (V m c main_v0 : S16x4096x64.Idx → EReal) (ix3 (slabOf t) (rowOf (tileOf t) r) e) := by
  obtain ⟨e0, e1, e2, -⟩ := idx_facts t
  unfold iblk
  rw [View.read_apply]
  show V m c main_v0 _ = V m c main_v0 _
  refine congrArg (V m c main_v0 : S16x4096x64.Idx → EReal) (funext fun a => Fin.ext ?_)
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 64 + 1 * e.val = e.val; omega

/-- A block of the keys: point t's window is block (t / 16, 0, 0) of 1 x 4096 x 64 entries, the whole slab t / 16. -/
theorem iblk1_apply (c : Dev nD) (t : Fin cfg0.N) (j : Fin 4096) (e : Fin 64) :
    (iblk m c 1 t : Vec Ideal S1x4096x64 .f32) (ix3 0 j e) = (V m c main_v1 : S16x4096x64.Idx → EReal) (ix3 (slabOf t) j e) := by
  obtain ⟨-, -, -, e0, e1, e2, -⟩ := idx_facts t
  unfold iblk
  rw [View.read_apply]
  show V m c main_v1 _ = V m c main_v1 _
  refine congrArg (V m c main_v1 : S16x4096x64.Idx → EReal) (funext fun a => Fin.ext ?_)
  match a with
  | ⟨0, _⟩ => show win0_1.index t (0 : Fin 3) * 1 + 1 * 0 = t.val / 16; omega
  | ⟨1, _⟩ => show win0_1.index t (1 : Fin 3) * 4096 + 1 * j.val = j.val; omega
  | ⟨2, _⟩ => show win0_1.index t (2 : Fin 3) * 64 + 1 * e.val = e.val; omega

/-- A block of the values: as for the keys, the whole slab t / 16. -/
theorem iblk2_apply (c : Dev nD) (t : Fin cfg0.N) (j : Fin 4096) (e : Fin 64) :
    (iblk m c 2 t : Vec Ideal S1x4096x64 .f32) (ix3 0 j e) = (V m c main_v2 : S16x4096x64.Idx → EReal) (ix3 (slabOf t) j e) := by
  obtain ⟨-, -, -, -, -, -, e0, e1, e2, -⟩ := idx_facts t
  unfold iblk
  rw [View.read_apply]
  show V m c main_v2 _ = V m c main_v2 _
  refine congrArg (V m c main_v2 : S16x4096x64.Idx → EReal) (funext fun a => Fin.ext ?_)
  match a with
  | ⟨0, _⟩ => show win0_2.index t (0 : Fin 3) * 1 + 1 * 0 = t.val / 16; omega
  | ⟨1, _⟩ => show win0_2.index t (1 : Fin 3) * 4096 + 1 * j.val = j.val; omega
  | ⟨2, _⟩ => show win0_2.index t (2 : Fin 3) * 64 + 1 * e.val = e.val; omega

end Cert.KernelIdeal.Hand
end
-- ==== Proof.BlockReads3.lean ====
/-
  The packed mask's block, read at an index.

  At grid point t (tile t % 16) the launch stages block (t % 16, 0) of 256 x 128 words of the packed mask, an array of
  4096 x 128 words: word (r, i) of the block is word (256 (t % 16) + r, i) of the array.  The read is first shown for any
  array of that shape, and then taken at the array the launch finds, so that the array's own definition is never opened.
-/
import proofs.«113299_j9955734192580_2_alg».proof.Proof.Gen.KernelIdeal.Frame
import proofs.«113299_j9955734192580_2_alg».proof.Proof.HostSide
import proofs.«113299_j9955734192580_2_alg».proof.Proof.Cover
import Idealize.ShloMosaic.Lib.Pipeline.Value
noncomputable section
namespace Cert.KernelIdeal.Hand
open Cert.KernelIdeal Cert.KernelIdeal.Gen Idealize.ShloMosaic Idealize.ShloMosaic.TcCoe Idealize.SL.Sem Idealize.ShloMosaic.ValueIdx

/-- Reading the packed mask's block of point t out of any array f of 4096 x 128 words: the block is (t % 16, 0) of
256 x 128 words, so word (r, i) of the block is word (256 (t % 16) + r, i) of f. -/
theorem blk3_read_apply (t : Fin cfg0.N) (f : S4096x128.Idx → BitVec 32) (r : Fin 256) (i : Fin 128) :
    (((cfg0.win 3).blk t).view.read (Elt Ideal) f : Vec Ideal S256x128 .i32) (ix2 r i) = f (ix2 (rowOf (tileOf t) r) i) := by
  obtain ⟨-, -, -, -, -, -, -, -, -, e0, e1, -⟩ := idx_facts t
  rw [View.read_apply]
  refine congrArg f (funext fun a => Fin.ext ?_)
  match a with
  | ⟨0, _⟩ => show win0_3.index t (0 : Fin 2) * 256 + 1 * r.val = 256 * (t.val % 16) + r.val; omega
  | ⟨1, _⟩ => show win0_3.index t (1 : Fin 2) * 128 + 1 * i.val = i.val; omega

variable (m : (ℓ : Loc nD τ sig) → Buf (Elt Ideal) ℓ)

/-- A block of the packed mask: word (r, i) of point t's block is word (256 (t % 16) + r, i) of the array the launch
finds. -/
theorem iblk3_apply (c : Dev nD) (t : Fin cfg0.N) (r : Fin 256) (i : Fin 128) :
    (iblk m c 3 t : Vec Ideal S256x128 .i32) (ix2 r i) = (V m c main_v12 : S4096x128.Idx → BitVec 32) (ix2 (rowOf (tileOf t) r) i) := by
  unfold iblk
  exact blk3_read_apply t (V m c (Pipeline.arrRef spec0 3)) r i

end Cert.KernelIdeal.Hand
end
-- ==== Proof.KernelArray.lean ====
/-
  The kernel's run, read: after every execution of the program the result array holds `kerOut` of the four
  argument arrays.

  Each grid point (g, qi) loads the query block of rows 256 qi … 256 qi + 255 of slab g, all 4096 key rows and value
  rows of slab g, and rows 256 qi … of the packed mask; what its body stores is, entry by entry, the kernel's row
  functional at that slab and row; so the block it writes back is the block of ONE function of the arrays the launch
  finds, the 256 blocks tile the [16, 4096, 64] result, and the result is that function.  The arrays the launch finds
  are the host's views of the arguments and the packed mask, and the program's result is the view back.
-/
import proofs.«113299_j9955734192580_2_alg».proof.Proof.Gen.KernelIdeal.Frame
import proofs.«113299_j9955734192580_2_alg».proof.Proof.HostSide
import proofs.«113299_j9955734192580_2_alg».proof.Proof.Payload
import proofs.«113299_j9955734192580_2_alg».proof.Proof.BlockReads
import proofs.«113299_j9955734192580_2_alg».proof.Proof.BlockReads3
import proofs.«113299_j9955734192580_2_alg».proof.Proof.Cover
import Idealize.ShloMosaic.Lib.Pipeline.Value
import Idealize.ShloMosaic.Lib.StableHlo.Run
import Idealize.ShloMosaic.Lib.Tactic

set_option pp.maxSteps 8000
set_option pp.deepTerms false

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Attn

variable (m : (ℓ : Loc nD τ sig) → Buf (Elt Ideal) ℓ) (ρ : Dev nD → PrngReg)

/-! ## The arrays the launch finds -/

theorem V_main_v0 (c : Dev nD) : (V m c main_v0 : S16x4096x64.Idx → EReal)
    = shapeCast S16x4096x64 (m ((c : Thread nD τ).loc main_arg0) : S2x8x4096x64.Idx → EReal) shapeCasts_S2x8x4096x64_S16x4096x64 := by
  show StableHlo.after hostOps0 (fun b => m (c, b)) (Proc.devRef .tc main_v0) = _
  after_results
  rfl

theorem V_main_v1 (c : Dev nD) : (V m c main_v1 : S16x4096x64.Idx → EReal)
    = shapeCast S16x4096x64 (m ((c : Thread nD τ).loc main_arg1) : S2x8x4096x64.Idx → EReal) shapeCasts_S2x8x4096x64_S16x4096x64 := by
  show StableHlo.after hostOps0 (fun b => m (c, b)) (Proc.devRef .tc main_v1) = _
  after_results
  rfl

theorem V_main_v2 (c : Dev nD) : (V m c main_v2 : S16x4096x64.Idx → EReal)
    = shapeCast S16x4096x64 (m ((c : Thread nD τ).loc main_arg2) : S2x8x4096x64.Idx → EReal) shapeCasts_S2x8x4096x64_S16x4096x64 := by
  show StableHlo.after hostOps0 (fun b => m (c, b)) (Proc.devRef .tc main_v2) = _
  after_results
  rfl

theorem V_main_v12 (c : Dev nD) : (V m c main_v12 : S4096x128.Idx → BitVec 32)
    = packedOf (m ((c : Thread nD τ).loc main_arg3) : S1x1x4096x4096.Idx → BitVec 1) := by
  show StableHlo.after hostOps0 (fun b => m (c, b)) (Proc.devRef .tc main_v12) = _
  after_results
  rfl

/-! ## One block -/

/-- What the body stores from blocks that are rows of Q3, K3, V3 and P at slab g and tile qi is, at the block's entry
    y, the kernel's result function at the array index k that y sits at. -/
theorem block_eq (x0 : Vec Ideal S1x256x64 .f32) (x1 x2 : Vec Ideal S1x4096x64 .f32) (x3 : Vec Ideal S256x128 .i32)
    (Q3 K3 V3 : S16x4096x64.Idx → EReal) (P : S4096x128.Idx → BitVec 32) (g qi : Fin 16)
    (h0 : ∀ (r : Fin 256) (e : Fin 64), x0 (ix3 0 r e) = Q3 (ix3 g (rowOf qi r) e))
    (h1 : ∀ (j : Fin 4096) (e : Fin 64), x1 (ix3 0 j e) = K3 (ix3 g j e))
    (h2 : ∀ (j : Fin 4096) (e : Fin 64), x2 (ix3 0 j e) = V3 (ix3 g j e))
    (h3 : ∀ (r : Fin 256) (i : Fin 128), x3 (ix2 r i) = P (ix2 (rowOf qi r) i))
    (y : S1x256x64.Idx) (k : S16x4096x64.Idx)
    (hk0 : (k 0).val = g.val) (hk1 : (k 1).val = 256 * qi.val + (y 1).val) (hk2 : (k 2).val = (y 2).val) :
    k0_pay1 (F := Ideal) (k0_pay2 x0 x1 x2 x3) y = ker3 Q3 K3 V3 P k := by
  obtain ⟨u, r, d, rfl⟩ : ∃ (u : Fin 1) (r : Fin 256) (d : Fin 64), y = ix3 u r d := ⟨y 0, y 1, y 2, eq_ix3 y⟩
  obtain rfl : u = 0 := Subsingleton.elim _ _
  have hk : k = ix3 g (rowOf qi r) d := funext fun a => Fin.ext (by
    match a with
    | ⟨0, _⟩ => exact hk0
    | ⟨1, _⟩ => exact hk1
    | ⟨2, _⟩ => exact hk2)
  rw [hk, ker3_ix3, pay1_apply, pay2_apply]
  unfold ker3At
  simp only [h0, h1, h2, h3]

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as the launch computes it from the arrays it finds. -/
abbrev out3 (c : Dev nD) : S16x4096x64.Idx → EReal :=
  ker3 (V m c main_v0) (V m c main_v1) (V m c main_v2) (V m c main_v12)

-- the kernel's result function and the body's arithmetic stay folded from here on: nothing below opens them
attribute [local irreducible] ker3At k0_pay2

/-- What point t writes back is block t of ANY array that agrees, entry by entry, with what the body stores. -/
theorem flushed4_of (c : Dev nD) (t : Fin cfg0.N) (G : S16x4096x64.Idx → EReal)
    (hG : ∀ (y : S1x256x64.Idx) (k : S16x4096x64.Idx), (k 0).val = t.val / 16 → (k 1).val = 256 * (t.val % 16) + (y 1).val →
      (k 2).val = (y 2).val →
      k0_pay1 (F := Ideal) (k0_pay2 (iblk m c 0 t) (iblk m c 1 t) (iblk m c 2 t) (iblk m c 3 t)) y = G k) :
    (dats m 0 c).flushed 4 t = ((cfg0.win 4).blk t).view.read (Elt Ideal) G := by
  show (cfg0.win 4).cut (grid0.coords t) ((dats m 0 c).after 4 t) = _
  rw [after0_4]
  unfold out0_4
  rw [View.canon_unit_zero hz3]
  simp only [View.ld_unit_zero (S := S1x256x64) hz3, View.ld_unit_zero (S := S1x4096x64) hz3, View.ld_unit_zero (S := S256x128) hz2]
  obtain ⟨e00, e01, e02, e10, e11, e12, e20, e21, e22, e30, e31, e40, e41, e42⟩ := idx_facts t
  funext y
  show k0_pay1 (F := Ideal) (k0_pay2 (iblk m c 0 t) (iblk m c 1 t) (iblk m c 2 t) (iblk m c 3 t)) y = G (((cfg0.win 4).blk t).view.emb y)
  refine hG y (((cfg0.win 4).blk t).view.emb y) ?_ ?_ ?_
  · show win0_4.index t (0 : Fin 3) * 1 + 1 * (y 0).val = t.val / 16
    have hy : (y 0).val < 1 := (y 0).isLt
    omega
  · show win0_4.index t (1 : Fin 3) * 256 + 1 * (y 1).val = 256 * (t.val % 16) + (y 1).val
    omega
  · show win0_4.index t (2 : Fin 3) * 64 + 1 * (y 2).val = (y 2).val
    omega

/-- What point t writes back is block t of the launch's result function. -/
theorem flushed4_eq (c : Dev nD) (t : Fin cfg0.N) :
    (dats m 0 c).flushed 4 t = ((cfg0.win 4).blk t).view.read (Elt Ideal) (out3 m c) :=
  flushed4_of m c t (out3 m c) fun y k h0 h1 h2 =>
    block_eq (iblk m c 0 t) (iblk m c 1 t) (iblk m c 2 t) (iblk m c 3 t) (V m c main_v0) (V m c main_v1) (V m c main_v2) (V m c main_v12)
      (slabOf t) (tileOf t) (iblk0_apply m c t) (iblk1_apply m c t) (iblk2_apply m c t) (iblk3_apply m c t) y k h0 h1 h2

/-- The 256 blocks tile the result array, so it ends holding that function. -/
theorem final4 (c : Dev nD) : (dats m 0 c).arrAt 4 cfg0.N = out3 m c :=
  (dats m 0 c).arrAt_eq_of_cover 4 (out3 m c) (fun t _ => flushed4_eq m c t) cover4

/-! ## The program's result -/

/-- The host's view back of the result array. -/
theorem tail_eq (c : Dev nD) (X : S16x4096x64.Idx → EReal) (hX : (dats m 0 c).arrAt 4 cfg0.N = X) :
    (Pipeline.afterTail₀ cfgs (dats m) 0 (V0 m) [hostOps1] c main_v14 : S2x8x4096x64.Idx → EReal)
      = shapeCast S2x8x4096x64 X shapeCasts_S16x4096x64_S2x8x4096x64 := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.tc.devRef main_v13) = X :=
    (Pipeline.withArrays_arr spec0 launch0.win.arr_inj c (V0 m c) (fun w => (dats m 0 c).arrAt w cfg0.N) 4).trans hX
  rw [e]
  rfl

/-- The program's result, from the argument arrays. -/
theorem result_eq (c : Dev nD) :
    (Pipeline.afterTail₀ cfgs (dats m) 0 (V0 m) [hostOps1] c main_v14 : S2x8x4096x64.Idx → EReal)
      = kerOut (m ((c : Thread nD τ).loc main_arg0)) (m ((c : Thread nD τ).loc main_arg1)) (m ((c : Thread nD τ).loc main_arg2))
          (m ((c : Thread nD τ).loc main_arg3)) := by
  refine (tail_eq m c _ (final4 m c)).trans ?_
  unfold out3 kerOut
  rw [V_main_v0, V_main_v1, V_main_v2, V_main_v12]

/-- Every execution terminates with the result array at `kerOut` of the arguments, the arguments unchanged. -/
theorem run : θ_run defs (onTc (τ := τ) (main (F := Ideal))) ⟨m, fun _ => 0, ρ⟩ fun r => ∀ c : Dev nD,
      r.2.mem ((c.tc : Thread nD τ).loc main_v14)
        = kerOut (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.BitPack.lean ====
/-
  Bit packing.  A word built as the sum over b < 32 of (bit b, widened) * (1 shifted left by b) holds bit b at
  binary position b, so shifting it down by b, masking with 1 and comparing with 0 gives the bit back.

  The road: the word is the natural number N = sum of (bit b) * 2^b reduced mod 2^32; by induction on the number
  of summands a partial sum of n zero-one terms is below 2^n and its binary digit j < n is the j-th term; the
  arithmetic shift right by b < 32 read at position 0 is the word's position b.
-/
import proofs.«113299_j9955734192580_2_alg».proof.Proof.AttnSpec
import Mathlib.Algebra.BigOperators.Fin

namespace Cert.Attn.BitPack

open Idealize.ShloMosaic

/-- A sum of the first `n` terms `c i * 2^i` with every `c i` zero or one is below `2^n`, and its binary
    digit at a position `j < n` says whether `c j` is one. -/
theorem digits_sum (c : ℕ → ℕ) (hc : ∀ i, c i ≤ 1) (n : ℕ) :
    (∑ i ∈ Finset.range n, c i * 2 ^ i) < 2 ^ n ∧
    ∀ j, j < n → (∑ i ∈ Finset.range n, c i * 2 ^ i).testBit j = decide (c j = 1) := by
  induction n with
  | zero => simp
  | succ n ih =>
    obtain ⟨hlt, hbit⟩ := ih
    rw [Finset.sum_range_succ]
    have h01 : c n = 0 ∨ c n = 1 := by have := hc n; omega
    rcases h01 with h | h
    · -- the new term is zero: the sum is unchanged, and its digit at position n is zero
      rw [h, Nat.zero_mul, Nat.add_zero]
      refine ⟨by rw [Nat.pow_succ]; omega, ?_⟩
      intro j hj
      rcases Nat.lt_succ_iff_lt_or_eq.mp hj with hj | rfl
      · exact hbit j hj
      · rw [Nat.testBit_lt_two_pow hlt, h]; rfl
    · -- the new term is 2^n: it sets digit n and leaves the digits below n alone
      rw [h, Nat.one_mul, Nat.add_comm]
      refine ⟨by rw [Nat.pow_succ]; omega, ?_⟩
      intro j hj
      rcases Nat.lt_succ_iff_lt_or_eq.mp hj with hj | rfl
      · rw [Nat.testBit_two_pow_add_gt hj]; exact hbit j hj
      · rw [Nat.testBit_two_pow_add_eq, Nat.testBit_lt_two_pow hlt, h]; rfl

/-- A position below 32, written as a word, reads back as itself. -/
theorem toNat_ofNat_pos (a : Fin 32) : (BitVec.ofNat 32 a.val).toNat = a.val := by
  have ha : a.val < 32 := a.isLt
  rw [BitVec.toNat_ofNat]; exact Nat.mod_eq_of_lt (by omega)

/-- One summand of the packed word: the widened bit times `1` shifted left by `a` is the word of `bit * 2^a`. -/
theorem term_eq (v : BitVec 1) (a : Fin 32) :
    IntOp.muli (v.setWidth 32) (IntOp.shli .host 1#32 (BitVec.ofNat 32 a.val))
      = BitVec.ofNat 32 (v.toNat * 2 ^ a.val) := by
  have ha : a.val < 32 := a.isLt
  have h1 := toNat_ofNat_pos a
  unfold IntOp.muli IntOp.shli
  rw [if_pos (by rw [h1]; exact ha), BitVec.shiftLeft_eq', h1]
  apply BitVec.eq_of_toNat_eq
  rw [BitVec.toNat_mul, BitVec.toNat_setWidth, BitVec.toNat_shiftLeft, BitVec.toNat_ofNat,
    BitVec.toNat_ofNat, Nat.shiftLeft_eq, Nat.mod_eq_of_lt (show 1 < 2 ^ 32 by norm_num), Nat.one_mul]
  exact (Nat.mul_mod _ _ _).symm

/-- The fold of word addition over any set of positions is the word of the sum of natural numbers. -/
theorem fold_eq (f : Fin 32 → BitVec 1) (s : Finset (Fin 32)) :
    s.fold IntOp.addi 0#32
      (fun b => IntOp.muli ((f b).setWidth 32) (IntOp.shli .host 1#32 (BitVec.ofNat 32 b.val)))
      = BitVec.ofNat 32 (∑ b ∈ s, (f b).toNat * 2 ^ b.val) := by
  induction s using Finset.induction_on with
  | empty => simp
  | insert a s ha ih =>
    rw [Finset.fold_insert ha, Finset.sum_insert ha, ih, term_eq]
    unfold IntOp.addi
    exact (BitVec.ofNat_add _ _).symm

/-- Masking a word with 1 leaves something other than zero exactly when the word's lowest position is set. -/
theorem and_one_ne (x : BitVec 32) : (x &&& 1#32 != 0#32) = x.getLsbD 0 := by
  rw [BitVec.and_one_eq_setWidth_ofBool_getLsbD]
  cases x.getLsbD 0 <;> decide

end Cert.Attn.BitPack

namespace Cert.Attn

open Idealize.ShloMosaic BitPack

/-- Packing 32 mask bits into a word and reading bit b back gives the bit. -/
theorem bitOf_packWord (f : Fin 32 → BitVec 1) (b : Fin 32) : bitOf (packWord f) b = f b := by
  have hb : b.val < 32 := b.isLt
  -- the bits as a zero-one sequence of natural numbers, zero from position 32 on
  let c : ℕ → ℕ := fun i => if h : i < 32 then (f ⟨i, h⟩).toNat else 0
  have hc : ∀ i, c i ≤ 1 := by
    intro i
    by_cases h : i < 32
    · have := (f ⟨i, h⟩).isLt
      simp only [c, dif_pos h]; omega
    · simp only [c, dif_neg h]; omega
  have hcb : c b.val = (f b).toNat := by simp only [c, dif_pos hb]
  have hsum : (∑ a : Fin 32, (f a).toNat * 2 ^ a.val) = ∑ i ∈ Finset.range 32, c i * 2 ^ i := by
    rw [← Fin.sum_univ_eq_sum_range (fun i => c i * 2 ^ i) 32]
    refine Finset.sum_congr rfl (fun a _ => ?_)
    simp only [c, dif_pos a.isLt]
  obtain ⟨hlt, hbit⟩ := digits_sum c hc 32
  have hw : packWord f = BitVec.ofNat 32 (∑ i ∈ Finset.range 32, c i * 2 ^ i) := by
    unfold packWord; rw [fold_eq, hsum]
  rw [hw]
  unfold bitOf IntOp.cmpi IntOp.andi IntOp.shrsi
  have h1 := toNat_ofNat_pos b
  rw [if_pos (by rw [h1]; exact hb), BitVec.sshiftRight_eq', h1]
  show BitVec.ofBool
      ((BitVec.ofNat 32 (∑ i ∈ Finset.range 32, c i * 2 ^ i)).sshiftRight b.val &&& 1#32 != 0#32) = f b
  -- position 0 of the shifted word is position b of the word, which is digit b of the sum
  have h32 : decide (32 ≤ 0) = false := by decide
  have hbd : decide (b.val < 32) = true := decide_eq_true hb
  rw [and_one_ne, BitVec.getLsbD_sshiftRight, Nat.add_zero, if_pos hb, BitVec.getLsbD_ofNat,
    hbit b.val hb, hcb, h32, hbd, Bool.not_false, Bool.true_and, Bool.true_and]
  -- a one-bit word is 0 or 1
  rcases BitVec.eq_zero_or_eq_one (f b) with h | h <;> rw [h] <;> decide

end Cert.Attn
-- ==== Proof.RowLaw.lean ====
/-
  The algebra joining the two orders of operations, over the extended reals, with no program in sight.

  The extended reals contain the two infinities, where a product or a quotient does not distribute over a
  sum.  Every law here is therefore stated for entries that are real numbers: each side is rewritten as the
  coercion of one real expression, and the two real expressions are equal by the field laws.
-/
import proofs.«113299_j9955734192580_2_alg».proof.Proof.AttnSpec
import Idealize.ShloMosaic.PureOps.Ideal.Laws
noncomputable section
namespace Cert.Attn
open Idealize.ShloMosaic Idealize.ShloMosaic.ValueIdx

/-! ## The six float words as extended reals -/

theorem negInf_eq : negInf = ⊥ := by
  simp [negInf, Ideal.ofBits, Ideal.ieee]

theorem zeroW_eq : zeroW = 0 := by
  simp [zeroW, Ideal.ofBits, Ideal.ieee]

theorem eight_eq : eight = ((8 : ℝ) : EReal) := by
  simp [eight, Ideal.ofBits, Ideal.ieee, -EReal.coe_mul]; norm_num

theorem eighth_eq : eighth = ((1 / 8 : ℝ) : EReal) := by
  simp [eighth, Ideal.ofBits, Ideal.ieee, -EReal.coe_mul]; norm_num

theorem fillRef_eq : fillRef = ((-1000000000 : ℝ) : EReal) := by
  simp [fillRef, Ideal.ofBits, Ideal.ieee, -EReal.coe_mul]; norm_num

theorem fillKer_eq : fillKer = ((-125000000 : ℝ) : EReal) := by
  simp [fillKer, Ideal.ofBits, Ideal.ieee, -EReal.coe_mul]; norm_num

/-! ## Sums and maxima of real entries stay real -/

/-- The coercion of a finite real sum is the sum of the coercions. -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, folded from -infinity, of a nonempty family of reals is a real. -/
theorem fold_max_real {ι : Type} (s : Finset ι) (hs : s.Nonempty) (f : ι → ℝ) :
    ∃ m : ℝ, s.fold max (⊥ : EReal) (fun i => (f i : EReal)) = (m : EReal) := by
  classical
  induction hs using Finset.Nonempty.cons_induction with
  | singleton a => exact ⟨f a, by simp⟩
  | cons a s ha hs ih =>
    obtain ⟨m, hm⟩ := ih
    refine ⟨max (f a) m, ?_⟩
    rw [Finset.fold_cons, hm]; exact (EReal.coe_strictMono.monotone.map_max).symm

/-- A dot product of real vectors, taken in the extended reals, is the coercion of the real dot product. -/
theorem coe_dot {ι : Type} [Fintype ι] (a c : ι → ℝ) :
    (∑ d, (a d : EReal) * (c d : EReal)) = ((∑ d, a d * c d : ℝ) : EReal) := by
  refine (Finset.sum_congr rfl fun d _ => ?_).trans (coe_sum_real _ _).symm
  rw [EReal.coe_mul]

/-! ## One row, for real scores and values shifted by a real -/

theorem row_law {ι : Type} [Fintype ι] [Nonempty ι] (σ ν : ι → ℝ) (m : ℝ) :
    Ideal.div (∑ j, Ideal.exp ((σ j : EReal) - (m : EReal)) * (ν j : EReal))
        (∑ j, Ideal.exp ((σ j : EReal) - (m : EReal)))
      = ∑ j, Ideal.div (Ideal.exp ((σ j : EReal) - (m : EReal)))
          (0 + ∑ j', Ideal.exp ((σ j' : EReal) - (m : EReal))) * (ν j : EReal) := by
  have hexp : ∀ j, Ideal.exp ((σ j : EReal) - (m : EReal)) = ((Real.exp (σ j - m) : ℝ) : EReal) := fun j => by
    rw [← EReal.coe_sub, Ideal.exp_coe]
  have hW : (∑ j, Ideal.exp ((σ j : EReal) - (m : EReal))) = ((∑ j, Real.exp (σ j - m) : ℝ) : EReal) := by
    exact (Finset.sum_congr rfl fun j _ => hexp j).trans (coe_sum_real _ _).symm
  have hpos : (0 : ℝ) < ∑ j, Real.exp (σ j - m) :=
    Finset.sum_pos (fun j _ => Real.exp_pos _) Finset.univ_nonempty
  have hne : (∑ j, Real.exp (σ j - m)) ≠ 0 := ne_of_gt hpos
  rw [zero_add, hW, Ideal.div_coe hne]
  have hL : (∑ j, Ideal.exp ((σ j : EReal) - (m : EReal)) * (ν j : EReal))
      = ((∑ j, Real.exp (σ j - m) * ν j : ℝ) : EReal) := by
    refine (Finset.sum_congr rfl fun j _ => ?_).trans (coe_sum_real _ _).symm
    rw [hexp j, EReal.coe_mul]
  rw [hL, ← EReal.coe_mul]
  have hR : (∑ j, Ideal.div (Ideal.exp ((σ j : EReal) - (m : EReal)))
        ((∑ j', Real.exp (σ j' - m) : ℝ) : EReal) * (ν j : EReal))
      = ((∑ j, Real.exp (σ j - m) * (1 / ∑ j', Real.exp (σ j' - m)) * ν j : ℝ) : EReal) := by
    refine (Finset.sum_congr rfl fun j _ => ?_).trans (coe_sum_real _ _).symm
    rw [Ideal.div_coe hne, hexp j, ← EReal.coe_mul, ← EReal.coe_mul]
  rw [hR, Finset.sum_mul]
  exact congrArg _ (Finset.sum_congr rfl fun j _ => by ring)

/-! ## One score, for real queries and keys -/

theorem score_law {ι : Type} [Fintype ι] (a c : ι → ℝ) :
    (∑ d, ((a d : EReal) * ((1 / 8 : ℝ) : EReal)) * (c d : EReal))
      = Ideal.div (∑ d, (a d : EReal) * (c d : EReal)) ((8 : ℝ) : EReal) := by
  have h8 : (8 : ℝ) ≠ 0 := by norm_num
  have hL : (∑ d, ((a d : EReal) * ((1 / 8 : ℝ) : EReal)) * (c d : EReal))
      = ((∑ d, a d * (1 / 8) * c d : ℝ) : EReal) := by
    refine (Finset.sum_congr rfl fun d _ => ?_).trans (coe_sum_real _ _).symm
    rw [EReal.coe_mul, EReal.coe_mul]
  rw [hL, coe_dot, Ideal.div_coe h8, ← EReal.coe_mul, Finset.sum_mul]
  exact congrArg _ (Finset.sum_congr rfl fun d _ => by ring)

/-! ## The four laws -/

/-- A score computed the kernel's way equals the reference's: (q·(1/8))·k summed = (q·k summed)/8, and -1.25e8 = -1e9/8. -/
theorem scoreKer_eq_scoreRef (q k : Fin 64 → EReal) (hq : ∀ d, ∃ r : ℝ, q d = (r : EReal)) (hk : ∀ d, ∃ r : ℝ, k d = (r : EReal)) (b : BitVec 1) :
    scoreKer q k b = scoreRef q k b := by
  choose a ha using hq
  choose c hc using hk
  obtain rfl : q = fun d => (a d : EReal) := funext ha
  obtain rfl : k = fun d => (c d : EReal) := funext hc
  unfold scoreKer scoreRef
  rw [eighth_eq, eight_eq]
  rcases BitVec.eq_zero_or_eq_one b with h | h <;> subst h
  · rw [select_zero, select_zero]; exact score_law a c
  · rw [select_one, select_one, fillKer_eq, fillRef_eq, Ideal.div_coe (by norm_num : (8 : ℝ) ≠ 0), ← EReal.coe_mul]
    exact congrArg _ (by norm_num)

/-- and it is a real number. -/
theorem scoreRef_real (q k : Fin 64 → EReal) (hq : ∀ d, ∃ r : ℝ, q d = (r : EReal)) (hk : ∀ d, ∃ r : ℝ, k d = (r : EReal)) (b : BitVec 1) :
    ∃ r : ℝ, scoreRef q k b = (r : EReal) := by
  choose a ha using hq
  choose c hc using hk
  obtain rfl : q = fun d => (a d : EReal) := funext ha
  obtain rfl : k = fun d => (c d : EReal) := funext hc
  unfold scoreRef
  rw [eight_eq, Ideal.div_coe (by norm_num : (8 : ℝ) ≠ 0)]
  rcases BitVec.eq_zero_or_eq_one b with h | h <;> subst h
  · rw [select_zero]
    exact ⟨(∑ d, a d * c d) * (1 / 8), by rw [EReal.coe_mul]; exact congrArg (· * _) (coe_dot a c)⟩
  · rw [select_one, fillRef_eq, ← EReal.coe_mul]; exact ⟨_, rfl⟩

/-- One row: dividing the weighted sum once by the sum of the weights equals summing the normalised weights (finite scores and values; 4096 > 0 so the weights' sum is positive). -/
theorem rowKer_eq_rowRef (s v : Fin 4096 → EReal) (hs : ∀ j, ∃ r : ℝ, s j = (r : EReal)) (hv : ∀ j, ∃ r : ℝ, v j = (r : EReal)) :
    rowKer s v = rowRef s v := by
  choose σ hσ using hs
  choose ν hν using hv
  obtain rfl : s = fun j => (σ j : EReal) := funext hσ
  obtain rfl : v = fun j => (ν j : EReal) := funext hν
  obtain ⟨m, hm⟩ := fold_max_real (Finset.univ : Finset (Fin 4096)) Finset.univ_nonempty σ
  have hmax : rowMax (fun j => (σ j : EReal)) = (m : EReal) := by
    unfold rowMax; rw [negInf_eq]; exact hm
  unfold rowKer rowRef
  rw [hmax, negInf_eq, zeroW_eq, max_eq_right (bot_le : (⊥ : EReal) ≤ (m : EReal))]
  exact row_law σ ν m

/-- The whole result at an index: the kernel's order of operations gives the reference's value, for real-valued Q, K, V. -/
theorem kerAt_eq_refAt (Q K V : SQ.Idx → EReal) (M : SM.Idx → BitVec 1)
    (hQ : ∀ i, ∃ r : ℝ, Q i = (r : EReal)) (hK : ∀ i, ∃ r : ℝ, K i = (r : EReal)) (hV : ∀ i, ∃ r : ℝ, V i = (r : EReal))
    (b : Fin 2) (h : Fin 8) (q : Fin 4096) (d : Fin 64) : kerAt Q K V M b h q d = refAt Q K V M b h q d := by
  unfold kerAt refAt
  have hscore : (fun j : Fin 4096 => scoreKer (fun e => Q (ix4 b h q e)) (fun e => K (ix4 b h j e)) (M (ix4 0 0 q j)))
      = fun j : Fin 4096 => scoreRef (fun e => Q (ix4 b h q e)) (fun e => K (ix4 b h j e)) (M (ix4 0 0 q j)) :=
    funext fun j => scoreKer_eq_scoreRef _ _ (fun e => hQ _) (fun e => hK _) _
  rw [hscore]
  exact rowKer_eq_rowRef _ _ (fun j => scoreRef_real _ _ (fun e => hQ _) (fun e => hK _) _) (fun j => hV _)

end Cert.Attn
end
-- ==== Proof.KernelMath.lean ====
/-
  The kernel's result array as a function of the four argument arrays is the specification's array.

  The kernel works in the [16, 4096, 64] view of Q, K, V (batch b and head h merged into 8 b + h) and reads the
  mask bit of key j from bit j % 32 of word j / 32 of the packed mask.  Undoing the views coordinate by coordinate,
  and reading the packed bit back as the mask bit of key 32 (j / 32) + j % 32 = j, the kernel's result at
  (b, h, q, d) is the kernel's row functional of the kernel's scores on the arguments themselves; for real-valued
  Q, K, V that is the reference's row functional of the reference's scores.
-/
import proofs.«113299_j9955734192580_2_alg».proof.Proof.HostSide
import proofs.«113299_j9955734192580_2_alg».proof.Proof.BitPack
import proofs.«113299_j9955734192580_2_alg».proof.Proof.RowLaw

noncomputable section

namespace Cert.KernelIdeal.Hand

open Cert.KernelIdeal Cert.KernelIdeal.Gen Idealize.ShloMosaic Idealize.ShloMosaic.ValueIdx Cert.Attn

/-- Key position j is bit j % 32 of word j / 32. -/
theorem keyOf_wordOf_bitPos (j : Fin 4096) : keyOf (wordOf j) (bitPos j) = j := by
  apply Fin.ext
  show 32 * (j.val / 32) + j.val % 32 = j.val
  omega

/-- For real-valued Q, K, V the kernel's result array is the reference's. -/
theorem kerOut_eq_G (Q K V : S2x8x4096x64.Idx → EReal) (M : S1x1x4096x4096.Idx → BitVec 1)
    (hQ : ∀ i, ∃ r : ℝ, Q i = (r : EReal)) (hK : ∀ i, ∃ r : ℝ, K i = (r : EReal)) (hV : ∀ i, ∃ r : ℝ, V i = (r : EReal)) :
    kerOut Q K V M = G Q K V M := by
  funext i
  obtain ⟨b, h, q, d, rfl⟩ : ∃ (b : Fin 2) (h : Fin 8) (q : Fin 4096) (d : Fin 64), i = ix4 b h q d :=
    ⟨i 0, i 1, i 2, i 3, eq_ix4 i⟩
  unfold kerOut
  rw [split_heads_apply, ker3_ix3, G_ix4, ← kerAt_eq_refAt Q K V M hQ hK hV]
  unfold ker3At kerAt
  -- the query row, in the merged view, is the argument's row
  have eQ : (fun e => shapeCast S16x4096x64 Q shapeCasts_S2x8x4096x64_S16x4096x64 (ix3 (hd b h) q e))
      = fun e => Q (ix4 b h q e) := funext fun e => merge_heads_apply Q b h q e
  -- so is each key row
  have eK : ∀ j : Fin 4096, (fun e => shapeCast S16x4096x64 K shapeCasts_S2x8x4096x64_S16x4096x64 (ix3 (hd b h) j e))
      = fun e => K (ix4 b h j e) := fun j => funext fun e => merge_heads_apply K b h j e
  -- the packed bit of key j, read back, is the mask bit of key j
  have eM : ∀ j : Fin 4096, bitOf (packedOf M (ix2 q (wordOf j))) (bitPos j) = M (ix4 0 0 q j) := by
    intro j
    rw [packedOf_apply, bitOf_packWord, keyOf_wordOf_bitPos]
  -- and the value column
  have eV : (fun j => shapeCast S16x4096x64 V shapeCasts_S2x8x4096x64_S16x4096x64 (ix3 (hd b h) j d))
      = fun j => V (ix4 b h j d) := funext fun j => merge_heads_apply V b h j d
  refine congrArg₂ rowKer (funext fun j => ?_) eV
  rw [eQ, eK j, eM j]

end Cert.KernelIdeal.Hand

end
-- ==== Proof.RefRead.lean ====
/-
  The reference program, read index by index, is the specification's `G`.

  The reference forms the scores (dot product of a query row with a key row, replaced by the fill where the
  mask bit is set, divided by 8), takes each row's maximum (folded from -infinity, then once more against
  -infinity), exponentiates the shifted scores, sums them along the row starting from the zero word, divides
  each weight by that sum, and contracts the weights with the value column.  Each of these steps is read at an
  index here, one small lemma per step, and the last one is the specification's `rowRef` word for word.
-/
import proofs.«113299_j9955734192580_2_alg».proof.Proof.Gen.ReferenceIdeal.Read
import proofs.«113299_j9955734192580_2_alg».proof.Proof.AttnSpec
noncomputable section
namespace Cert.Attn
open Idealize.ShloMosaic Idealize.ShloMosaic.ValueIdx Cert.ReferenceIdeal

namespace RefRead

/-! ## The composed index functions at literal coordinates -/

theorem lidx0_ix4 (b : Fin 2) (h : Fin 8) (q j : Fin 4096) (k : Fin 64) :
    Read.lidx_main_v0 (ix4 b h q j) k = ix4 b h q k :=
  funext fun a => Fin.ext (by match a with | ⟨0, _⟩ => rfl | ⟨1, _⟩ => rfl | ⟨2, _⟩ => rfl | ⟨3, _⟩ => rfl)

theorem ridx0_ix4 (b : Fin 2) (h : Fin 8) (q j : Fin 4096) (k : Fin 64) :
    Read.ridx_main_v0 (ix4 b h q j) k = ix4 b h j k :=
  funext fun a => Fin.ext (by match a with | ⟨0, _⟩ => rfl | ⟨1, _⟩ => rfl | ⟨2, _⟩ => rfl | ⟨3, _⟩ => rfl)

theorem idxc0_ix4 (b : Fin 2) (h : Fin 8) (q j : Fin 4096) :
    Read.idx_main_call0_v0 (ix4 b h q j) = ix4 0 0 q j :=
  funext fun a => Fin.ext (by match a with | ⟨0, _⟩ => rfl | ⟨1, _⟩ => rfl | ⟨2, _⟩ => rfl | ⟨3, _⟩ => rfl)

theorem idx78_ix4 (b : Fin 2) (h : Fin 8) (q j : Fin 4096) :
    Read.idx_main_v7 (Read.idx_main_v8 (ix4 b h q j)) = ix3 b h q :=
  funext fun a => Fin.ext (by match a with | ⟨0, _⟩ => rfl | ⟨1, _⟩ => rfl | ⟨2, _⟩ => rfl)

theorem idx1213_ix4 (b : Fin 2) (h : Fin 8) (q j : Fin 4096) :
    Read.idx_main_v12 (Read.idx_main_v13 (ix4 b h q j)) = ix3 b h q :=
  funext fun a => Fin.ext (by match a with | ⟨0, _⟩ => rfl | ⟨1, _⟩ => rfl | ⟨2, _⟩ => rfl)

theorem idx11_ix3 (b : Fin 2) (h : Fin 8) (q k : Fin 4096) :
    Read.idx_main_v11 (ix3 b h q) k = ix4 b h q k :=
  funext fun a => Fin.ext (by match a with | ⟨0, _⟩ => rfl | ⟨1, _⟩ => rfl | ⟨2, _⟩ => rfl | ⟨3, _⟩ => rfl)

theorem lidx15_ix4 (b : Fin 2) (h : Fin 8) (q : Fin 4096) (d : Fin 64) (k : Fin 4096) :
    Read.lidx_main_v15 (ix4 b h q d) k = ix4 b h q k :=
  funext fun a => Fin.ext (by match a with | ⟨0, _⟩ => rfl | ⟨1, _⟩ => rfl | ⟨2, _⟩ => rfl | ⟨3, _⟩ => rfl)

theorem ridx15_ix4 (b : Fin 2) (h : Fin 8) (q : Fin 4096) (d : Fin 64) (k : Fin 4096) :
    Read.ridx_main_v15 (ix4 b h q d) k = ix4 b h k d :=
  funext fun a => Fin.ext (by match a with | ⟨0, _⟩ => rfl | ⟨1, _⟩ => rfl | ⟨2, _⟩ => rfl | ⟨3, _⟩ => rfl)

/-- The index over `(b, h, q)` with the coordinate `k` inserted on the reduced (last) axis. -/
theorem lift_ix3 (b : Fin 2) (h : Fin 8) (q k : Fin 4096) :
    (by decide : S2x8x4096x4096.Reduces [3] S2x8x4096).lift (ix3 b h q) k = ix4 b h q k :=
  funext fun a => Fin.ext (by match a with | ⟨0, _⟩ => rfl | ⟨1, _⟩ => rfl | ⟨2, _⟩ => rfl | ⟨3, _⟩ => rfl)

/-! ## The row of scores of one query -/

/-- The scores of query `q` of head `h` of batch `b` against every key, as the specification writes them. -/
def srow (x0 x1 : (⟨S2x8x4096x64, .f32⟩ : BufTy).Contents (Elt Ideal)) (x3 : (⟨S1x1x4096x4096, .i1⟩ : BufTy).Contents (Elt Ideal))
    (b : Fin 2) (h : Fin 8) (q : Fin 4096) : Fin 4096 → EReal :=
  fun j => scoreRef (fun e => x0 (ix4 b h q e)) (fun e => x1 (ix4 b h j e)) (x3 (ix4 0 0 q j))

variable (x0 x1 x2 : (⟨S2x8x4096x64, .f32⟩ : BufTy).Contents (Elt Ideal)) (x3 : (⟨S1x1x4096x4096, .i1⟩ : BufTy).Contents (Elt Ideal))

/-- The scaled, masked score: dot product, fill where the bit is set, divided by 8. -/
theorem v3_at (b : Fin 2) (h : Fin 8) (q j : Fin 4096) :
    Read.val_main_v3 (F := Ideal) x0 x1 x3 (ix4 b h q j) = srow x0 x1 x3 b h q j := by
  rw [Read.val_main_v3_apply, Read.val_main_v1_apply, Read.val_main_call0_v0_apply, Read.val_main_call0_v1_apply,
    Read.val_main_v0_apply, Read.val_main_v2_apply, Read.val_main_cst_apply, Read.val_main_cst_0_apply, idxc0_ix4]
  simp only [lidx0_ix4, ridx0_ix4]
  rfl

/-- The row maximum: the fold of `max` from -infinity over the row of scores. -/
theorem v4_at (b : Fin 2) (h : Fin 8) (q : Fin 4096) :
    Read.val_main_v4 (F := Ideal) x0 x1 x3 (ix3 b h q) = rowMax (srow x0 x1 x3 b h q) := by
  unfold Read.val_main_v4
  have hv3 : ∀ j : Fin 4096, Read.val_main_v3 (F := Ideal) x0 x1 x3 (ix4 b h q j) = srow x0 x1 x3 b h q j :=
    fun j => v3_at x0 x1 x3 b h q j
  generalize Read.val_main_v3 (F := Ideal) x0 x1 x3 = y at hv3 ⊢
  rw [Host.reduce_eq_fold_single _ _ _ Facts₀.reducesTo_S2x8x4096x4096_S2x8x4096_d3 (by decide)]
  have hrow : (y ∘ (by decide : S2x8x4096x4096.Reduces [3] S2x8x4096).lift (ix3 b h q)) = srow x0 x1 x3 b h q :=
    funext fun k => (congrArg y (lift_ix3 b h q k)).trans (hv3 k)
  rw [hrow]
  rfl

/-- The maximum taken once more against -infinity. -/
theorem v6_at (b : Fin 2) (h : Fin 8) (q : Fin 4096) :
    Read.val_main_v6 (F := Ideal) x0 x1 x3 (ix3 b h q) = max negInf (rowMax (srow x0 x1 x3 b h q)) := by
  rw [Read.val_main_v6_apply, Read.val_main_v5_apply, Read.val_main_cst_2_apply, v4_at]
  rfl

/-- The unnormalised weight: the exponential of the score shifted by the row maximum. -/
theorem v10_at (b : Fin 2) (h : Fin 8) (q j : Fin 4096) :
    Read.val_main_v10 (F := Ideal) x0 x1 x3 (ix4 b h q j)
      = Ideal.exp (srow x0 x1 x3 b h q j - max negInf (rowMax (srow x0 x1 x3 b h q))) := by
  rw [Read.val_main_v10_apply, Read.val_main_v9_apply, Read.val_main_v8_apply, Read.val_main_v7_apply, idx78_ix4,
    v6_at, v3_at]
  rfl

/-- The sum of the row's weights, started from the zero word. -/
theorem v11_at (b : Fin 2) (h : Fin 8) (q : Fin 4096) :
    Read.val_main_v11 (F := Ideal) x0 x1 x3 (ix3 b h q)
      = zeroW + ∑ j' : Fin 4096, Ideal.exp (srow x0 x1 x3 b h q j' - max negInf (rowMax (srow x0 x1 x3 b h q))) := by
  rw [Read.val_main_v11_apply, Read.val_main_cst_3_apply]
  refine congrArg₂ (· + ·) rfl (Finset.sum_congr rfl fun k _ => ?_)
  rw [idx11_ix3, v10_at]

/-- The normalised weight. -/
theorem v14_at (b : Fin 2) (h : Fin 8) (q j : Fin 4096) :
    Read.val_main_v14 (F := Ideal) x0 x1 x3 (ix4 b h q j)
      = Ideal.div (Ideal.exp (srow x0 x1 x3 b h q j - max negInf (rowMax (srow x0 x1 x3 b h q))))
          (zeroW + ∑ j' : Fin 4096, Ideal.exp (srow x0 x1 x3 b h q j' - max negInf (rowMax (srow x0 x1 x3 b h q)))) := by
  rw [Read.val_main_v14_apply, Read.val_main_v13_apply, Read.val_main_v12_apply, idx1213_ix4, v11_at, v10_at]
  rfl

/-- The result element: the normalised weights contracted with the value column. -/
theorem v15_at (b : Fin 2) (h : Fin 8) (q : Fin 4096) (d : Fin 64) :
    Read.val_main_v15 (F := Ideal) x0 x1 x2 x3 (ix4 b h q d)
      = rowRef (srow x0 x1 x3 b h q) (fun j => x2 (ix4 b h j d)) := by
  rw [Read.val_main_v15_apply]
  unfold rowRef
  refine Finset.sum_congr rfl fun k _ => ?_
  rw [lidx15_ix4, ridx15_ix4, v14_at]

end RefRead

/-- The reference's last stage, as a function of the four argument arrays, is G. -/
theorem ref_eq_G (x0 x1 x2 : (⟨S2x8x4096x64, .f32⟩ : BufTy).Contents (Elt Ideal)) (x3 : (⟨S1x1x4096x4096, .i1⟩ : BufTy).Contents (Elt Ideal)) :
    Cert.ReferenceIdeal.Read.val_main_v15 (F := Ideal) x0 x1 x2 x3 = G x0 x1 x2 x3 := by
  funext i
  obtain ⟨b, h, q, d, rfl⟩ : ∃ (b : Fin 2) (h : Fin 8) (q : Fin 4096) (d : Fin 64), i = ix4 b h q d :=
    ⟨i 0, i 1, i 2, i 3, eq_ix4 i⟩
  rw [G_ix4, RefRead.v15_at]
  rfl

end Cert.Attn
-- ==== Proof.FiniteInputs.lean ====
import proofs.«113299_j9955734192580_2_alg».proof.Pre_finite_inputs
import proofs.«113299_j9955734192580_2_alg».proof.Proof.Gen.Pre_finite_inputs
import Idealize.ShloMosaic.PureOps.Ideal
import Idealize.ShloMosaic.Lib.ReduceAll
import Idealize.ShloMosaic.Lib.ValueIdx
noncomputable section
namespace Cert.Attn
open Idealize.ShloMosaic Idealize.ShloMosaic.ValueIdx

/-- An extended real whose absolute value (the larger of the value and its negation) compares strictly below the
f32 pattern of plus infinity is a real number: plus infinity and minus infinity both have absolute value plus
infinity, which is not strictly below itself. -/
theorem real_of_abs_olt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  unfold Ideal.cmp at h
  induction a using EReal.rec with
  | bot => simp at h
  | coe r => exact ⟨r, rfl⟩
  | top => simp at h

/-- One array: where the conjunction over all indices of "the absolute value is strictly below plus infinity"
comes out one, every entry is a real number. -/
theorem real_of_all_abs_olt_inf {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim S ![] hb (constant (F := Ideal) Cert.Pre_finite_inputs.S_ .f32 0x7F800000#32)))
          init hr hu ix0 = 1#1) :
    ∀ i, ∃ r : ℝ, x i = (r : EReal) := by
  intro i
  haveI : Subsingleton Cert.Pre_finite_inputs.S_.Idx := ⟨fun a b => funext fun d => d.elim0⟩
  have hi := Host.reduce_andi_all _ init hr hu ix0 e i
  exact real_of_abs_olt_inf (x i) hi

/-- Where the printed precondition is all ones, every entry of the three float arrays is a real number. -/
theorem real_of_finite_inputs (x0 x1 x2 : FVec Ideal Cert.Pre_finite_inputs.S2x8x4096x64 .f32) (x3 : IVec Cert.Pre_finite_inputs.S1x1x4096x4096 1)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨real_of_all_abs_olt_inf x0 _ _ _ _ h0', real_of_all_abs_olt_inf x1 _ _ _ _ h1,
    real_of_all_abs_olt_inf x2 _ _ _ _ h2⟩
end Cert.Attn
-- ==== Proof.lean ====
/-
  The certificate of the attention kernel against its reference.

  The reference computes, for every batch b, head h, query q and feature d, the softmax over the 4096 keys of the
  scores (Q·Kᵀ, replaced by -10^9 where the mask is set, divided by 8), weighted into V.  The kernel computes the same
  number another way: it scales Q by 1/8 before the product, fills with -1.25 * 10^8, reads the mask from words that the
  host packed 32 bits at a time, accumulates the unnormalised weights into V and divides once by their sum.
  On the extended reals the two agree when Q, K and V are finite: the packing is undone bit by bit (no condition),
  the scaling and the single division commute with the sums over real numbers, and -10^9 / 8 is -1.25 * 10^8.

  The three frames are the generated ones (the reference's is its generated run with the result dropped); the
  idealization rewrote nothing, so `preserves` is trivial; `algebraic` sets the kernel's run, read to one function of
  the arguments, beside the reference's generated run, read index by index to the specification.
-/
import proofs.«113299_j9955734192580_2_alg».proof.Defs
import proofs.«113299_j9955734192580_2_alg».proof.Proof.Gen.Kernel
import proofs.«113299_j9955734192580_2_alg».proof.Proof.Gen.Kernel.Skeleton
import proofs.«113299_j9955734192580_2_alg».proof.Proof.Gen.Kernel.Launch
import proofs.«113299_j9955734192580_2_alg».proof.Proof.Gen.Kernel.Points
import proofs.«113299_j9955734192580_2_alg».proof.Proof.Gen.Kernel.Frame
import proofs.«113299_j9955734192580_2_alg».proof.Proof.Gen.KernelIdeal
import proofs.«113299_j9955734192580_2_alg».proof.Proof.Gen.KernelIdeal.Skeleton
import proofs.«113299_j9955734192580_2_alg».proof.Proof.Gen.KernelIdeal.Launch
import proofs.«113299_j9955734192580_2_alg».proof.Proof.Gen.KernelIdeal.Points
import proofs.«113299_j9955734192580_2_alg».proof.Proof.Gen.KernelIdeal.Frame
import proofs.«113299_j9955734192580_2_alg».proof.Proof.Gen.ReferenceIdeal
import proofs.«113299_j9955734192580_2_alg».proof.Proof.Gen.Pre_finite_inputs
import proofs.«113299_j9955734192580_2_alg».proof.Proof.Gen.ReferenceIdeal.Run
import proofs.«113299_j9955734192580_2_alg».proof.Proof.Gen.ReferenceIdeal.Read
import proofs.«113299_j9955734192580_2_alg».proof.Proof.KernelArray
import proofs.«113299_j9955734192580_2_alg».proof.Proof.KernelMath
import proofs.«113299_j9955734192580_2_alg».proof.Proof.RefRead
import proofs.«113299_j9955734192580_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's array of the arguments: the kernel's result is `kerOut` of them, which
    is `G` where Q, K, V are finite (the precondition); the reference's last stage is `G` at every input. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Hand.run m ρ)
    obtain ⟨hQ, hK, hV⟩ := Cert.Attn.real_of_finite_inputs _ _ _ _ (hpre c)
    exact Cert.KernelIdeal.Hand.kerOut_eq_G _ _ _ _ hQ hK hV
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, Cert.Attn.ref_eq_G, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
